-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S144x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S144x128 .f32 := Host.absf main_arg5
  let main_cst_6 : FVec F S_ .f32 := constant S_ .f32 0x7F800000#32
  let main_v20 : FVec F S144x128 .f32 := broadcastInDim S144x128 ![] bcast_S_S144x128 main_cst_6
  let main_v21 : IVec S144x128 1 := cmpf .olt main_v19 main_v20
  let main_c_7 : IVec S_ 1 := constantI S_ 1 1#1
  let main_v22 : IVec S_ 1 := (fun x v => Host.reduce IntOp.andi x v reducesTo_S144x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x16 .f32) (main_arg3 : FVec F S144x128 .f32) (main_arg4 : FVec F S128 .f32) (main_arg5 : FVec F S144x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S144x128 .f32 := Host.absf main_arg3
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000x16 : Shape := ⟨2, ![50000, 16]⟩
abbrev S800000x1 : Shape := ⟨2, ![800000, 1]⟩
abbrev S128x128 : Shape := ⟨2, ![128, 128]⟩
abbrev S16x128 : Shape := ⟨2, ![16, 128]⟩
abbrev S5000x128 : Shape := ⟨2, ![5000, 128]⟩
abbrev S800000x128 : Shape := ⟨2, ![800000, 128]⟩
abbrev S1x128 : Shape := ⟨2, ![1, 128]⟩
abbrev S5000x16 : Shape := ⟨2, ![5000, 16]⟩

abbrev nBuf : Space → Nat
  | .hbm => 50
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S144x128, .f32⟩
  | .hbm, ⟨4, _⟩ => ⟨S128, .f32⟩
  | .hbm, ⟨5, _⟩ => ⟨S144x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x16, .f32⟩
  | .hbm, ⟨13, _⟩ => ⟨S800000x1, .i32⟩
  | .hbm, ⟨14, _⟩ => ⟨S50000x16, .f32⟩
  | .hbm, ⟨15, _⟩ => ⟨S128x128, .f32⟩
  | .hbm, ⟨16, _⟩ => ⟨S16x128, .f32⟩
  | .hbm, ⟨17, _⟩ => ⟨S128x128, .f32⟩
  | .hbm, ⟨18, _⟩ => ⟨S16x128, .f32⟩
  | .hbm, ⟨19, _⟩ => ⟨S50000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128, .f32⟩
  | .hbm, ⟨49, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x16, .f32⟩
  | .local _ .vmem, ⟨8, _⟩ => ⟨S5000x16, .f32⟩
  | .local _ .vmem, ⟨9, _⟩ => ⟨S16x128, .f32⟩
  | .local _ .vmem, ⟨10, _⟩ => ⟨S1x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x16, .f32⟩
  | .local _ .vmem, ⟨17, _⟩ => ⟨S5000x16, .f32⟩
  | .local _ .vmem, ⟨18, _⟩ => ⟨S16x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x16 : S_.BroadcastsInDim S50000x16 (![] : Fin 0 → Fin S50000x16.rank)
  bcast_S800000_S800000x1_0 : S800000.BroadcastsInDim S800000x1 (![0] : Fin 1 → Fin S800000x1.rank)
  slices_S144x128_S128x128_0_0 : S144x128.Slices ![0, 0] S128x128
  slices_S144x128_S16x128_128_0 : S144x128.Slices ![128, 0] S16x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S_S50000x128 : S_.BroadcastsInDim S50000x128 (![] : Fin 0 → Fin S50000x128.rank)
  shapeCasts_S128_S1x128 : S128.ShapeCasts S1x128
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  scatter_S50000x16_S800000x1_S800000x16_1_0_0_1_wf : ScatterDims.WF S50000x16 S800000x1 S800000x16 [1] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x16_S16x128_S5000x128_1_0_0_1_n_n_wf : DotDims.WF S5000x16 S16x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S50000x16.size a
  hwx1_1 : ∀ i : grid1.Coords, EltTy.bits .f32 = 32 ∨ (Rect.block (s := S50000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S16x128.size a
  hwx1_2 : ∀ i : grid1.Coords, EltTy.bits .f32 = 32 ∨ (Rect.block (s := S16x128) S16x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S50000x16.size a
  hwx2_1 : ∀ i : grid2.Coords, EltTy.bits .f32 = 32 ∨ (Rect.block (s := S50000x16) S5000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x128.size a ≤ S16x128.size a
  hwx2_2 : ∀ i : grid2.Coords, EltTy.bits .f32 = 32 ∨ (Rect.block (s := S16x128) S16x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S16x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S16x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S1x800000 : Shape := ⟨2, ![1, 800000]⟩
abbrev S800000 : Shape := ⟨1, ![800000]⟩
abbrev S128x128 : Shape := ⟨2, ![128, 128]⟩
abbrev S16x128 : Shape := ⟨2, ![16, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S144x128, .f32⟩
  | .hbm, ⟨4, _⟩ => ⟨S128, .f32⟩
  | .hbm, ⟨5, _⟩ => ⟨S144x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S128x128, .f32⟩
  | .hbm, ⟨12, _⟩ => ⟨S16x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S128x128, .f32⟩
  | .hbm, ⟨36, _⟩ => ⟨S16x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S144x128_S128x128_0_0 : S144x128.Slices ![0, 0] S128x128
  slices_S144x128_S16x128_128_0 : S144x128.Slices ![128, 0] S16x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  dot_S800000x16_S16x128_S800000x128_1_0_0_1_n_n_wf : DotDims.WF S800000x16 S16x128 S800000x128 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The idealized kernel program's run with its result named.

  The program is three grid kernels among three stretches of host operations. Its frame run already knows the
  contents of every buffer at the return: the fold `W6` of the host stretches and of the three kernels' write-backs
  over the launch memory. Here the run is stated once more with the result buffer read off that fold, beside the
  arguments, which end as launched.
-/
import proofs.«104050_j77962246357191_2_alg».proof.Proof.Gen.KernelIdeal.Frame

set_option maxRecDepth 16384

noncomputable section

namespace Cert.EdgeGcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the fold's
    contents and every argument as launched. -/
theorem run_value : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.EdgeGcn.KRun

end
-- ==== Proof.LibPlainMatmul.lean ====
/-
  A plain matrix product read at an entry.

  At the exact instance a `tpu.matmul` into the zero accumulator is, at each output index, the sum over the dot's
  contraction index of the products of the operands at the indices the dimension numbers name. For the plainest
  dimension numbers — an M × K matrix times a K × N matrix, one contracted axis, no batch axis — the operand indices at
  output (y, j) and contraction coordinate k are (y, k) and (k, j), and the contraction index is its one coordinate; so
  the entry is the familiar `Σₖ a[y, k] · w[k, j]` over `Fin K`. The four coordinate facts are taken as hypotheses:
  for a concrete record each is one line (two by the record's own single-axis lemmas, two by unfolding the index
  function at a decided membership).
-/
import Idealize.ShloMosaic.PureOps.Ideal.Laws
import Idealize.ShloMosaic.Lib.ValueIdx

noncomputable section

namespace Cert.EdgeScore.Lib

open Idealize.ShloMosaic Idealize.ShloMosaic.ValueIdx

/-- Entry (y, j) of an M × K by K × N product accumulated into zero is `Σₖ a (y, k) · w (k, j)`, `k` over `Fin K`:
    the contraction index re-read as its one coordinate (`hr`, `hs`: one contracted axis of extent K), the operand
    indices by their coordinates (`hl0`, `hl1`, `hr0`, `hr1`). Nothing of real arithmetic is used, so it holds
    with infinite entries too. -/
theorem matmul_zero_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 y k) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.EdgeScore.Lib

end
-- ==== Proof.KBody.lean ====
/-
  The three kernel bodies' arithmetic, read at one entry, on the extended reals.

  Each body is a chain of whole-array operations; at an entry (y, j) of its result it is an expression in
  the entries of the arrays it read. A matrix product into the zero array is, at (y, j), the sum over the
  contracted coordinate k of a (y, k) · w (k, j); a sum or a maximum of arrays is the sum or the maximum of
  the entries; a one-row array repeated down the rows is that row's entry in column j; a change of float
  format and a cast between equal shapes are the identity.
-/
import proofs.«104050_j77962246357191_2_alg».proof.Proof.Gen.KernelIdeal.Skeleton
import proofs.«104050_j77962246357191_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.EdgeGcn.KBody

open Cert.KernelIdeal Cert.KernelIdeal.Gen Idealize.ShloMosaic Idealize.ShloMosaic.ValueIdx
open Cert.EdgeScore.Lib

/-! ## The two products' operand indices

Both products multiply a matrix with rows indexed by the output's row by a matrix with columns indexed by
the output's column, contracting the left operand's column axis against the right operand's row axis. So at
output entry (y, j) and contraction coordinate k the left operand is read at (y, k), the right one at (k, j). -/

/-- The wide product (5000 × 128 by 128 × 128): the left operand's row is the output's row. -/
theorem wide_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … its column is the contraction coordinate. -/
theorem wide_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction coordinate … -/
theorem wide_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and its column is the output's column. -/
theorem wide_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The narrow product (5000 × 16 by 16 × 128): the left operand's row is the output's row. -/
theorem narrow_lhs_0 (i : S5000x128.Idx) (q : dot_S5000x16_S16x128_S5000x128_1_0_0_1_n_n.contr.Idx) :
    (dot_S5000x16_S16x128_S5000x128_1_0_0_1_n_n.lhsIdx i q 0).val = (i 0).val := by
  unfold DotDims.lhsIdx
  rw [dif_neg (show ¬(0 : Fin S5000x16.rank) ∈ dot_S5000x16_S16x128_S5000x128_1_0_0_1_n_n.lhsBatch by decide), dif_pos (show (0 : Fin S5000x16.rank) ∈ dot_S5000x16_S16x128_S5000x128_1_0_0_1_n_n.lhsNonContracting by decide)]
  rfl
/-- … its column is the contraction coordinate. -/
theorem narrow_lhs_1 (i : S5000x128.Idx) (q : dot_S5000x16_S16x128_S5000x128_1_0_0_1_n_n.contr.Idx) :
    (dot_S5000x16_S16x128_S5000x128_1_0_0_1_n_n.lhsIdx i q 1).val = (q ⟨0, by decide⟩).val :=
  dot_S5000x16_S16x128_S5000x128_1_0_0_1_n_n.lhsIdx_val_of_single rfl i q
/-- The right operand's row is the contraction coordinate … -/
theorem narrow_rhs_0 (i : S5000x128.Idx) (q : dot_S5000x16_S16x128_S5000x128_1_0_0_1_n_n.contr.Idx) :
    (dot_S5000x16_S16x128_S5000x128_1_0_0_1_n_n.rhsIdx i q 0).val = (q ⟨0, by decide⟩).val :=
  dot_S5000x16_S16x128_S5000x128_1_0_0_1_n_n.rhsIdx_val_of_single rfl i q
/-- … and its column is the output's column. -/
theorem narrow_rhs_1 (i : S5000x128.Idx) (q : dot_S5000x16_S16x128_S5000x128_1_0_0_1_n_n.contr.Idx) :
    (dot_S5000x16_S16x128_S5000x128_1_0_0_1_n_n.rhsIdx i q 1).val = (i 1).val := by
  unfold DotDims.rhsIdx
  rw [dif_neg (show ¬(1 : Fin S16x128.rank) ∈ dot_S5000x16_S16x128_S5000x128_1_0_0_1_n_n.rhsBatch by decide), dif_pos (show (1 : Fin S16x128.rank) ∈ dot_S5000x16_S16x128_S5000x128_1_0_0_1_n_n.rhsNonContracting by decide)]
  rfl

/-! ## The two products at an entry -/

/-- Entry (y, j) of the wide product into zero is Σₖ a (y, k) · w (k, j), k over the 128 contracted coordinates. -/
theorem wide_apply {φ₁ φ₂ : FTy} (a : FVec Ideal S5000x128 φ₁) (w : FVec Ideal S128x128 φ₂) (y : Fin 5000) (j : Fin 128) :
    FloatOps.matmul dot_S5000x128_S128x128_S5000x128_1_0_0_1_n_n none a w (constant (F := Ideal) S5000x128 .f32 0x00000000#32) (ix2 y j)
      = ∑ k : Fin 128, a (ix2 y k) * w (ix2 k j) :=
  matmul_zero_ix2_apply dot_S5000x128_S128x128_S5000x128_1_0_0_1_n_n rfl rfl wide_lhs_0 wide_lhs_1 wide_rhs_0 wide_rhs_1 none a w y j

/-- Entry (y, j) of the narrow product into zero is Σ_c a (y, c) · w (c, j), c over the 16 contracted coordinates. -/
theorem narrow_apply {φ₁ φ₂ : FTy} (a : FVec Ideal S5000x16 φ₁) (w : FVec Ideal S16x128 φ₂) (y : Fin 5000) (j : Fin 128) :
    FloatOps.matmul dot_S5000x16_S16x128_S5000x128_1_0_0_1_n_n none a w (constant (F := Ideal) S5000x128 .f32 0x00000000#32) (ix2 y j)
      = ∑ c : Fin 16, a (ix2 y c) * w (ix2 c j) :=
  matmul_zero_ix2_apply dot_S5000x16_S16x128_S5000x128_1_0_0_1_n_n rfl rfl narrow_lhs_0 narrow_lhs_1 narrow_rhs_0 narrow_rhs_1 none a w y j

/-! ## The three bodies at an entry

On the extended reals a change of float format is the identity and a cast between equal shapes changes
nothing, so what remains of each body is its arithmetic: products, sums, the row of biases repeated down
the rows, and the maximum with zero. -/

/-- The zero pattern, as a scalar, is the extended real zero. -/
theorem scalar_zero : (Scalar.ofBits .f32 0x00000000#32 : Ideal .f32) = 0 := Ideal.ofBits_zero_f32

/-- The projection body: entry (y, j) is Σₖ x (y, k) · w (k, j). -/
theorem pay0_apply (v0 : Vec Ideal S5000x128 .f32) (v2 : Vec Ideal S128x128 .f32) (y : Fin 5000) (j : Fin 128) :
    k0_pay1 (F := Ideal) v0 v2 (ix2 y j) = ∑ k : Fin 128, v0 (ix2 y k) * v2 (ix2 k j) := by
  unfold k0_pay1
  rw [shapeCast_self]
  exact wide_apply (φ₁ := .bf16) (φ₂ := .bf16) _ _ y j

/-- The final body: entry (y, j) is (h (y, j) + Σ_c e (y, c) · w (c, j)) + b (0, j): the carried rows plus the
    edge features' product plus the bias row. -/
theorem pay2_apply (v0 : Vec Ideal S5000x16 .f32) (v3 : Vec Ideal S16x128 .f32) (v7 : Vec Ideal S1x128 .f32) (v9 : Vec Ideal S5000x128 .f32) (y : Fin 5000) (j : Fin 128) :
    k2_pay1 (F := Ideal) v0 v3 v7 v9 (ix2 y j) = (v9 (ix2 y j) + ∑ c : Fin 16, v0 (ix2 y c) * v3 (ix2 c j)) + v7 (ix2 (0 : Fin 1) j) := by
  unfold k2_pay1
  simp only [shapeCast_self]
  rw [addf_apply, addf_apply, broadcastTo_1b_ab_apply]
  exact congrArg (fun t => v9 (ix2 y j) + t + v7 (ix2 (0 : Fin 1) j)) (narrow_apply (φ₁ := .bf16) (φ₂ := .bf16) _ _ y j)

/-- The middle body: the same sum as the final body's, cut off below at zero, then projected:
    entry (y, j) is Σₖ max ((h (y, k) + Σ_c e (y, c) · w (c, k)) + b (0, k)) 0 · w' (k, j). -/
theorem pay1_apply (v0 : Vec Ideal S5000x16 .f32) (v3 : Vec Ideal S16x128 .f32) (v7 : Vec Ideal S1x128 .f32) (v9 : Vec Ideal S5000x128 .f32) (v18 : Vec Ideal S128x128 .f32) (y : Fin 5000) (j : Fin 128) :
    k1_pay1 (F := Ideal) v0 v3 v7 v9 v18 (ix2 y j)
      = ∑ k : Fin 128, max ((v9 (ix2 y k) + ∑ c : Fin 16, v0 (ix2 y c) * v3 (ix2 c k)) + v7 (ix2 (0 : Fin 1) k)) 0 * v18 (ix2 k j) := by
  unfold k1_pay1
  simp only [shapeCast_self]
  refine (wide_apply (φ₁ := .bf16) (φ₂ := .bf16) _ _ y j).trans ?_
  refine Finset.sum_congr rfl fun k _ => ?_
  rw [truncf_apply, truncf_apply, maximumf_apply, addf_apply, addf_apply, broadcast_apply, broadcastTo_1b_ab_apply, scalar_zero]
  exact congrArg (fun t => max (v9 (ix2 y k) + t + v7 (ix2 (0 : Fin 1) k)) 0 * v18 (ix2 k j)) (narrow_apply (φ₁ := .bf16) (φ₂ := .bf16) _ _ y k)

end Cert.EdgeGcn.KBody
-- ==== Proof.KRegion0.lean ====
/-
  The first grid kernel: the node features times the node weights, five thousand rows at a time.

  Point `t` of the ten-point grid reads rows `5000 t … 5000 t + 4999` of the feature array and the whole weight matrix
  and writes the product's same rows. So the result array, once all ten blocks are written back, is the whole product
  `Y i = Σ_k x (i₀, k) · w (k, i₁)`, whatever the arrays held when the kernel was entered.
-/
import proofs.«104050_j77962246357191_2_alg».proof.Proof.Gen.KernelIdeal.Frame
import proofs.«104050_j77962246357191_2_alg».proof.Proof.KBody
import Idealize.ShloMosaic.Lib.Pipeline.Value
import Idealize.ShloMosaic.Lib.ValueIdx

set_option maxRecDepth 16384

noncomputable section

open scoped BigOperators

namespace Cert.EdgeGcn.KRegion0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The product of a 50000 × 128 array with a 128 × 128 matrix, entry by entry. -/
def Y (A0 : FVec Ideal S50000x128 .f32) (A1 : FVec Ideal S128x128 .f32) : FVec Ideal S50000x128 .f32 :=
  fun i => ∑ k : Fin 128, A0 (ix2 (i 0 : Fin 50000) k) * A1 (ix2 k (i 1 : Fin 128))

theorem hz : (![0, 0] : Fin 2 → Nat) = fun _ => 0 := funext fun a => by fin_cases a <;> rfl

/-- The three index maps over the grid: the feature block and the result block move together down the rows, the weight
    block stays. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- A block of the product from blocks of its factors: if the feature block's row `p` is the array's row `i₀` and the
    weight block is the whole matrix, entry `(p, q)` of the body's product is entry `i` of the whole product. -/
theorem block_eq (x0 : Vec Ideal S5000x128 .f32) (x1 : Vec Ideal S128x128 .f32) (A0 : FVec Ideal S50000x128 .f32)
    (A1 : FVec Ideal S128x128 .f32) (i : S50000x128.Idx) (p : Fin 5000) (q : Fin 128)
    (h0 : ∀ k : Fin 128, x0 (ix2 p k) = A0 (ix2 (i 0 : Fin 50000) k))
    (h1 : ∀ k : Fin 128, x1 (ix2 k q) = A1 (ix2 k (i 1 : Fin 128))) :
    k0_pay1 (F := Ideal) x0 x1 (ix2 p q) = Y A0 A1 i := by
  rw [Cert.EdgeGcn.KBody.pay0_apply]
  unfold Y
  exact Finset.sum_congr rfl fun k _ => by rw [h0 k, h1 k]

/-- What point `t` writes back is block `t` of the whole product. -/
theorem flushed_eq (c : Dev nD) (t : Fin cfg0.N) :
    (dat0 V c).flushed 2 t = ((cfg0.win 2).blk t).view.read (Elt Ideal) (Y (V c main_arg0) (V c main_v7)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Y (V c main_arg0) (V c main_v7) (((cfg0.win 2).blk t).view.emb (ix2 p q))
  refine block_eq _ _ _ _ _ p q ?_ ?_
  · intro k
    show V c main_arg0 (((cfg0.win 0).blk t).view.emb (ix2 p k)) = V c main_arg0 (ix2 _ k)
    refine congrArg _ ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · intro k
    show V c main_v7 (((cfg0.win 1).blk t).view.emb (ix2 k q)) = V c main_v7 (ix2 k _)
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v11).slice (win0_2.rect t)).set ↔ _
  rw [View.set_slice_whole, Rect.mem_set_unit]
  exact Iff.rfl

/-- The ten row blocks cover the array: row `r` is in block `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY after the kernel: the whole product of the arrays the kernel was entered with. -/
theorem final (c : Dev nD) : (dat0 V c).arrAt 2 cfg0.N = Y (V c main_arg0) (V c main_v7) :=
  (dat0 V c).arrAt_eq_of_cover 2 (Y (V c main_arg0) (V c main_v7)) (fun t _ => flushed_eq V c t) cover

end Cert.EdgeGcn.KRegion0

end
-- ==== Proof.KRegion1.lean ====
/-
  The second grid kernel: the first layer's epilogue fused with the second layer's node projection.

  Point `t` reads rows `5000 t … 5000 t + 4999` of the aggregated messages and of the aggregated edge attributes,
  and the whole edge weights, bias row and node weights; on each row it forms
  `h k = max ((aggr k + Σ_c attr c · We (c, k)) + b k, 0)` and writes `Σ_k h k · Wp (k, j)`. Once the ten blocks are
  written back the result array is that function of the entry arrays, row by row.
-/
import proofs.«104050_j77962246357191_2_alg».proof.Proof.Gen.KernelIdeal.Frame
import proofs.«104050_j77962246357191_2_alg».proof.Proof.KBody
import Idealize.ShloMosaic.Lib.Pipeline.Value
import Idealize.ShloMosaic.Lib.ValueIdx

set_option maxRecDepth 16384

noncomputable section

open scoped BigOperators

namespace Cert.EdgeGcn.KRegion1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The second kernel's whole-array function: the rectified first layer, row by row, times the second layer's node
    weights. -/
def Y2 (Ag : FVec Ideal S50000x128 .f32) (Ea : FVec Ideal S50000x16 .f32) (We : FVec Ideal S16x128 .f32)
    (B : FVec Ideal S1x128 .f32) (Wp : FVec Ideal S128x128 .f32) : FVec Ideal S50000x128 .f32 :=
  fun i => ∑ k : Fin 128, max ((Ag (ix2 (i 0 : Fin 50000) k) + ∑ c : Fin 16, Ea (ix2 (i 0 : Fin 50000) c) * We (ix2 c k))
    + B (ix2 (0 : Fin 1) k)) 0 * Wp (ix2 k (i 1 : Fin 128))

theorem hz : (![0, 0] : Fin 2 → Nat) = fun _ => 0 := funext fun a => by fin_cases a <;> rfl

/-- The index maps over the grid: the two row-blocked inputs and the result move together down the rows, the three
    small operands stay. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0
    ∧ win1_5.index t (0 : Fin 2) ≤ 9 :=
  (by decide +kernel : ∀ t : Fin grid1.N, _)

/-- Every row block is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- A block of the function from blocks of its operands: rows `p` of the two row-blocked inputs are the arrays' rows
    `i₀`, the small operands are whole. -/
theorem block_eq (x0 : Vec Ideal S5000x128 .f32) (x1 : Vec Ideal S5000x16 .f32) (x2 : Vec Ideal S16x128 .f32)
    (x3 : Vec Ideal S1x128 .f32) (x4 : Vec Ideal S128x128 .f32)
    (Ag : FVec Ideal S50000x128 .f32) (Ea : FVec Ideal S50000x16 .f32) (We : FVec Ideal S16x128 .f32)
    (B : FVec Ideal S1x128 .f32) (Wp : FVec Ideal S128x128 .f32) (i : S50000x128.Idx) (p : Fin 5000) (q : Fin 128)
    (h0 : ∀ k : Fin 128, x0 (ix2 p k) = Ag (ix2 (i 0 : Fin 50000) k))
    (h1 : ∀ c : Fin 16, x1 (ix2 p c) = Ea (ix2 (i 0 : Fin 50000) c))
    (h2 : ∀ (c : Fin 16) (k : Fin 128), x2 (ix2 c k) = We (ix2 c k))
    (h3 : ∀ k : Fin 128, x3 (ix2 (0 : Fin 1) k) = B (ix2 (0 : Fin 1) k))
    (h4 : ∀ k : Fin 128, x4 (ix2 k q) = Wp (ix2 k (i 1 : Fin 128))) :
    k1_pay1 (F := Ideal) x1 x2 x3 x0 x4 (ix2 p q) = Y2 Ag Ea We B Wp i := by
  rw [Cert.EdgeGcn.KBody.pay1_apply]
  unfold Y2
  simp only [h0, h1, h2, h3, h4]

/-- What point `t` writes back is block `t` of the whole-array function. -/
theorem flushed_eq (c : Dev nD) (t : Fin cfg1.N) :
    (dat1 V c).flushed 5 t = ((cfg1.win 5).blk t).view.read (Elt Ideal)
      (Y2 (V c main_v21) (V c main_v6) (V c main_v8) (V c main_v22) (V c main_v9)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x16) hz, View.ld_unit_zero (S := S16x128) hz,
    View.ld_unit_zero (S := S1x128) hz, View.ld_unit_zero (S := S128x128) hz]
  obtain ⟨e0, e1, e2, e3, e4, e5, e6, e7, e8, e9, e10, e11⟩ := idx_facts t
  funext j
  obtain ⟨p, q, rfl⟩ : ∃ (p : Fin 5000) (q : Fin 128), j = ix2 p q := ⟨j 0, j 1, eq_ix2 j⟩
  show k1_pay1 (F := Ideal) (iblk1 V c 1 t) (iblk1 V c 2 t) (iblk1 V c 3 t) (iblk1 V c 0 t) (iblk1 V c 4 t) (ix2 p q)
    = Y2 (V c main_v21) (V c main_v6) (V c main_v8) (V c main_v22) (V c main_v9) (((cfg1.win 5).blk t).view.emb (ix2 p q))
  refine block_eq _ _ _ _ _ _ _ _ _ _ _ p q ?_ ?_ ?_ ?_ ?_
  · intro k
    show V c main_v21 (((cfg1.win 0).blk t).view.emb (ix2 p k)) = V c main_v21 (ix2 _ k)
    refine congrArg _ ?_
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · intro k
    show V c main_v6 (((cfg1.win 1).blk t).view.emb (ix2 p k)) = V c main_v6 (ix2 _ k)
    refine congrArg _ ?_
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 16 + 1 * k.val = k.val; omega
  · intro k k'
    show V c main_v8 (((cfg1.win 2).blk t).view.emb (ix2 k k')) = V c main_v8 (ix2 k k')
    refine congrArg _ ?_
    funext a; apply Fin.ext
    match a with
    | ⟨0, _⟩ => show win1_2.index t (0 : Fin 2) * 16 + 1 * k.val = k.val; omega
    | ⟨1, _⟩ => show win1_2.index t (1 : Fin 2) * 128 + 1 * k'.val = k'.val; omega
  · intro k
    show V c main_v22 (((cfg1.win 3).blk t).view.emb (ix2 (0 : Fin 1) k)) = V c main_v22 (ix2 (0 : Fin 1) k)
    refine congrArg _ ?_
    funext a; apply Fin.ext
    match a with
    | ⟨0, _⟩ => show win1_3.index t (0 : Fin 2) * 1 + 1 * 0 = 0; omega
    | ⟨1, _⟩ => show win1_3.index t (1 : Fin 2) * 128 + 1 * k.val = k.val; omega
  · intro k
    show V c main_v9 (((cfg1.win 4).blk t).view.emb (ix2 k q)) = V c main_v9 (ix2 k _)
    refine congrArg _ ?_
    funext a; apply Fin.ext
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v23).slice (win1_5.rect t)).set ↔ _
  rw [View.set_slice_whole, Rect.mem_set_unit]
  exact Iff.rfl

/-- The ten row blocks cover the array: row `r` is in block `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE RESULT ARRAY after the kernel: the whole-array function of the arrays the kernel was entered with. -/
theorem final (c : Dev nD) : (dat1 V c).arrAt 5 cfg1.N
    = Y2 (V c main_v21) (V c main_v6) (V c main_v8) (V c main_v22) (V c main_v9) :=
  (dat1 V c).arrAt_eq_of_cover 5 (Y2 (V c main_v21) (V c main_v6) (V c main_v8) (V c main_v22) (V c main_v9))
    (fun t _ => flushed_eq V c t) cover

end Cert.EdgeGcn.KRegion1

end
-- ==== Proof.KRegion2.lean ====
/-
  The third grid kernel: the second layer's epilogue.

  Point `t` reads rows `5000 t … 5000 t + 4999` of the aggregated messages and of the aggregated edge attributes, the
  whole edge weights and the bias row, and writes `(aggr (r, j) + Σ_c attr (r, c) · We (c, j)) + b j` on its rows. Once
  the ten blocks are written back the result array is that function of the entry arrays.
-/
import proofs.«104050_j77962246357191_2_alg».proof.Proof.Gen.KernelIdeal.Frame
import proofs.«104050_j77962246357191_2_alg».proof.Proof.KBody
import Idealize.ShloMosaic.Lib.Pipeline.Value
import Idealize.ShloMosaic.Lib.ValueIdx

set_option maxRecDepth 16384

noncomputable section

open scoped BigOperators

namespace Cert.EdgeGcn.KRegion2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The third kernel's whole-array function: aggregated messages plus projected aggregated attributes plus the bias. -/
def Y3 (Ag : FVec Ideal S50000x128 .f32) (Ea : FVec Ideal S50000x16 .f32) (We : FVec Ideal S16x128 .f32)
    (B : FVec Ideal S1x128 .f32) : FVec Ideal S50000x128 .f32 :=
  fun i => (Ag (ix2 (i 0 : Fin 50000) (i 1 : Fin 128)) + ∑ c : Fin 16, Ea (ix2 (i 0 : Fin 50000) c) * We (ix2 c (i 1 : Fin 128)))
    + B (ix2 (0 : Fin 1) (i 1 : Fin 128))

theorem hz : (![0, 0] : Fin 2 → Nat) = fun _ => 0 := funext fun a => by fin_cases a <;> rfl

/-- The index maps over the grid: the two row-blocked inputs and the result move together down the rows, the two
    small operands stay. -/
theorem idx_facts : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0
    ∧ win2_4.index t (0 : Fin 2) ≤ 9 :=
  (by decide +kernel : ∀ t : Fin grid2.N, _)

/-- Every row block is some point's. -/
theorem idx_onto : ∀ q0 : Fin 10, ∃ t : Fin cfg2.N, win2_4.index t = ![q0.val, 0] :=
  (by decide +kernel : ∀ q0 : Fin 10, ∃ t : Fin grid2.N, win2_4.index t = ![q0.val, 0])

/-- A block of the function from blocks of its operands. -/
theorem block_eq (x0 : Vec Ideal S5000x128 .f32) (x1 : Vec Ideal S5000x16 .f32) (x2 : Vec Ideal S16x128 .f32)
    (x3 : Vec Ideal S1x128 .f32)
    (Ag : FVec Ideal S50000x128 .f32) (Ea : FVec Ideal S50000x16 .f32) (We : FVec Ideal S16x128 .f32)
    (B : FVec Ideal S1x128 .f32) (i : S50000x128.Idx) (p : Fin 5000) (q : Fin 128)
    (h0 : x0 (ix2 p q) = Ag (ix2 (i 0 : Fin 50000) (i 1 : Fin 128)))
    (h1 : ∀ c : Fin 16, x1 (ix2 p c) = Ea (ix2 (i 0 : Fin 50000) c))
    (h2 : ∀ c : Fin 16, x2 (ix2 c q) = We (ix2 c (i 1 : Fin 128)))
    (h3 : x3 (ix2 (0 : Fin 1) q) = B (ix2 (0 : Fin 1) (i 1 : Fin 128))) :
    k2_pay1 (F := Ideal) x1 x2 x3 x0 (ix2 p q) = Y3 Ag Ea We B i := by
  rw [Cert.EdgeGcn.KBody.pay2_apply]
  unfold Y3
  simp only [h0, h1, h2, h3]

/-- What point `t` writes back is block `t` of the whole-array function. -/
theorem flushed_eq (c : Dev nD) (t : Fin cfg2.N) :
    (dat2 V c).flushed 4 t = ((cfg2.win 4).blk t).view.read (Elt Ideal)
      (Y3 (V c main_v33) (V c main_v6) (V c main_v10) (V c main_v34)) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x16) hz, View.ld_unit_zero (S := S16x128) hz,
    View.ld_unit_zero (S := S1x128) hz]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  show k2_pay1 (F := Ideal) (iblk2 V c 1 t) (iblk2 V c 2 t) (iblk2 V c 3 t) (iblk2 V c 0 t) (ix2 p q)
    = Y3 (V c main_v33) (V c main_v6) (V c main_v10) (V c main_v34) (((cfg2.win 4).blk t).view.emb (ix2 p q))
  refine block_eq _ _ _ _ _ _ _ _ _ p q ?_ ?_ ?_ ?_
  · show V c main_v33 (((cfg2.win 0).blk t).view.emb (ix2 p q)) = V c main_v33 (ix2 _ _)
    refine congrArg _ ?_
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 128 + 1 * q.val = win2_4.index t (1 : Fin 2) * 128 + 1 * q.val; omega
  · intro k
    show V c main_v6 (((cfg2.win 1).blk t).view.emb (ix2 p k)) = V c main_v6 (ix2 _ k)
    refine congrArg _ ?_
    funext a; apply Fin.ext
    match a with
    | ⟨0, _⟩ => show win2_1.index t (0 : Fin 2) * 5000 + 1 * p.val = win2_4.index t (0 : Fin 2) * 5000 + 1 * p.val; omega
    | ⟨1, _⟩ => show win2_1.index t (1 : Fin 2) * 16 + 1 * k.val = k.val; omega
  · intro k
    show V c main_v10 (((cfg2.win 2).blk t).view.emb (ix2 k q)) = V c main_v10 (ix2 k _)
    refine congrArg _ ?_
    funext a; apply Fin.ext
    match a with
    | ⟨0, _⟩ => show win2_2.index t (0 : Fin 2) * 16 + 1 * k.val = k.val; omega
    | ⟨1, _⟩ => show win2_2.index t (1 : Fin 2) * 128 + 1 * q.val = win2_4.index t (1 : Fin 2) * 128 + 1 * q.val; omega
  · show V c main_v34 (((cfg2.win 3).blk t).view.emb (ix2 (0 : Fin 1) q)) = V c main_v34 (ix2 (0 : Fin 1) _)
    refine congrArg _ ?_
    funext a; apply Fin.ext
    match a with
    | ⟨0, _⟩ => show win2_3.index t (0 : Fin 2) * 1 + 1 * 0 = 0; omega
    | ⟨1, _⟩ => show win2_3.index t (1 : Fin 2) * 128 + 1 * q.val = win2_4.index t (1 : Fin 2) * 128 + 1 * q.val; omega

/-- An index of the array is in point `t`'s block iff each coordinate is in the block's range on its axis. -/
theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v35).slice (win2_4.rect t)).set ↔ _
  rw [View.set_slice_whole, Rect.mem_set_unit]
  exact Iff.rfl

/-- The ten row blocks cover the array: row `r` is in block `r / 5000`. -/
theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- THE RESULT ARRAY after the kernel: the whole-array function of the arrays the kernel was entered with. -/
theorem final (c : Dev nD) : (dat2 V c).arrAt 4 cfg2.N
    = Y3 (V c main_v33) (V c main_v6) (V c main_v10) (V c main_v34) :=
  (dat2 V c).arrAt_eq_of_cover 4 (Y3 (V c main_v33) (V c main_v6) (V c main_v10) (V c main_v34))
    (fun t _ => flushed_eq V c t) cover

end Cert.EdgeGcn.KRegion2

end
-- ==== Proof.KHost.lean ====
/-
  The idealized kernel program as one function of its arguments.

  The program alternates host operations and grid kernels: it splits the edge list into its source and destination
  rows, sums the edge attributes per destination node, and cuts each stacked weight matrix into its node-feature and
  edge-attribute rows; the first kernel multiplies the node features by the first layer's node weights; the host
  looks the product's rows up per edge and sums them per destination node; the second kernel adds the projected
  attribute sums and the bias, rectifies, and multiplies by the second layer's node weights; the host looks up and
  sums again; the third kernel adds the second layer's projected attribute sums and bias. Each host stretch is read
  over ANY contents it starts from — the buffers it writes at its operations' functions, the others kept — and the
  kernels by their whole-array functions, so the buffer the program returns is the composition `outK`.
-/
import proofs.«104050_j77962246357191_2_alg».proof.Proof.Gen.KernelIdeal.Frame
import Idealize.ShloMosaic.Lib.StableHlo.Run
import Idealize.ShloMosaic.Lib.ValueIdx
import proofs.«104050_j77962246357191_2_alg».proof.Proof.KRegion0
import proofs.«104050_j77962246357191_2_alg».proof.Proof.KRegion1
import proofs.«104050_j77962246357191_2_alg».proof.Proof.KRegion2
set_option maxRecDepth 16384

noncomputable section

open scoped BigOperators

namespace Cert.EdgeGcn.KHost

open Cert.KernelIdeal Cert.KernelIdeal.Gen
open Idealize.ShloMosaic Idealize.ShloMosaic.TcCoe Idealize.ShloMosaic.ValueIdx Idealize.SL.Sem Idealize.ShloMosaic.StableHlo

/-! ## The host operations as functions -/

/-- The source row of the edge list, as a flat array. -/
def v1Of (ei : IVec S2x800000 32) : IVec S800000 32 :=
  shapeCast _ (extractStridedSlice S1x800000 ![0, 0] ei slices_S2x800000_S1x800000_0_0) shapeCasts_S1x800000_S800000

/-- The destination row of the edge list, as a flat array. -/
def v3Of (ei : IVec S2x800000 32) : IVec S800000 32 :=
  shapeCast _ (extractStridedSlice S1x800000 ![1, 0] ei slices_S2x800000_S1x800000_1_0) shapeCasts_S1x800000_S800000

/-- The gather's start-index column: a negative source counts from the end of the table. -/
def srcCol (v1 : IVec S800000 32) : IVec S800000x1 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The scatter's start-index column. -/
def dstCol (v3 : IVec S800000 32) : IVec S800000x1 32 :=
  broadcastInDim S800000x1 ![0] bcast_S800000_S800000x1_0 v3

/-- The edge attributes summed per destination node. -/
def eaAgg (v3 : IVec S800000 32) (ea : FVec Ideal S800000x16 .f32) : FVec Ideal S50000x16 .f32 :=
  Host.scatterAdd (F := Ideal) scatter_S50000x16_S800000x1_S800000x16_1_0_0_1
    (broadcastInDim S50000x16 ![] bcast_S_S50000x16 (constant (F := Ideal) S_ .f32 0x00000000#32)) (dstCol v3) ea

/-- Node rows looked up per edge and summed per destination node. -/
def agg (v1 v3 : IVec S800000 32) (y : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) (dstCol v3)
    (Host.gather gather_S50000x128_S800000x1_S800000x128_1_0_n_n_0_1_1128 y (srcCol v1))

/-- The node-feature rows of a stacked weight matrix. -/
def top (W : FVec Ideal S144x128 .f32) : FVec Ideal S128x128 .f32 :=
  extractStridedSlice S128x128 ![0, 0] W slices_S144x128_S128x128_0_0

/-- The edge-attribute rows of a stacked weight matrix. -/
def bot (W : FVec Ideal S144x128 .f32) : FVec Ideal S16x128 .f32 :=
  extractStridedSlice S16x128 ![128, 0] W slices_S144x128_S16x128_128_0

/-- A bias as a one-row matrix. -/
def rowOf (b : FVec Ideal S128 .f32) : FVec Ideal S1x128 .f32 := shapeCast _ b shapeCasts_S128_S1x128

/-- THE PROGRAM'S RESULT as one function of its arguments: the three kernels' whole-array functions composed through
    the host operations between them. -/
def outK (x : FVec Ideal S50000x128 .f32) (ei : IVec S2x800000 32) (ea : FVec Ideal S800000x16 .f32)
    (W1 : FVec Ideal S144x128 .f32) (b1 : FVec Ideal S128 .f32) (W2 : FVec Ideal S144x128 .f32)
    (b2 : FVec Ideal S128 .f32) : FVec Ideal S50000x128 .f32 :=
  KRegion2.Y3
    (agg (v1Of ei) (v3Of ei)
      (KRegion1.Y2 (agg (v1Of ei) (v3Of ei) (KRegion0.Y x (top W1))) (eaAgg (v3Of ei) ea) (bot W1) (rowOf b1) (top W2)))
    (eaAgg (v3Of ei) ea) (bot W2) (rowOf b2)

/-! ## The three stretches of host operations, over any contents they start from -/

section Stretches
variable (W : Valuation τ sig (Elt Ideal))

theorem h0_v1 : StableHlo.after hostOps0 W (Proc.devRef .tc main_v1) = v1Of (W (Proc.devRef .tc main_arg1)) := by
  after_results; rfl
theorem h0_v3 : StableHlo.after hostOps0 W (Proc.devRef .tc main_v3) = v3Of (W (Proc.devRef .tc main_arg1)) := by
  after_results; rfl
theorem h0_v6 : StableHlo.after hostOps0 W (Proc.devRef .tc main_v6)
    = eaAgg (v3Of (W (Proc.devRef .tc main_arg1))) (W (Proc.devRef .tc main_arg2)) := by
  after_results; rfl
theorem h0_v7 : StableHlo.after hostOps0 W (Proc.devRef .tc main_v7) = top (W (Proc.devRef .tc main_arg3)) := by
  after_results; rfl
theorem h0_v8 : StableHlo.after hostOps0 W (Proc.devRef .tc main_v8) = bot (W (Proc.devRef .tc main_arg3)) := by
  after_results; rfl
theorem h0_v9 : StableHlo.after hostOps0 W (Proc.devRef .tc main_v9) = top (W (Proc.devRef .tc main_arg5)) := by
  after_results; rfl
theorem h0_v10 : StableHlo.after hostOps0 W (Proc.devRef .tc main_v10) = bot (W (Proc.devRef .tc main_arg5)) := by
  after_results; rfl
theorem h0_arg0 : StableHlo.after hostOps0 W (Proc.devRef .tc main_arg0) = W (Proc.devRef .tc main_arg0) := by
  after_results
theorem h0_arg4 : StableHlo.after hostOps0 W (Proc.devRef .tc main_arg4) = W (Proc.devRef .tc main_arg4) := by
  after_results
theorem h0_arg6 : StableHlo.after hostOps0 W (Proc.devRef .tc main_arg6) = W (Proc.devRef .tc main_arg6) := by
  after_results

theorem h1_v21 : StableHlo.after hostOps1 W (Proc.devRef .tc main_v21)
    = agg (W (Proc.devRef .tc main_v1)) (W (Proc.devRef .tc main_v3)) (W (Proc.devRef .tc main_v11)) := by
  after_results; rfl
theorem h1_v22 : StableHlo.after hostOps1 W (Proc.devRef .tc main_v22) = rowOf (W (Proc.devRef .tc main_arg4)) := by
  after_results; rfl
theorem h1_v1 : StableHlo.after hostOps1 W (Proc.devRef .tc main_v1) = W (Proc.devRef .tc main_v1) := by after_results
theorem h1_v3 : StableHlo.after hostOps1 W (Proc.devRef .tc main_v3) = W (Proc.devRef .tc main_v3) := by after_results
theorem h1_v6 : StableHlo.after hostOps1 W (Proc.devRef .tc main_v6) = W (Proc.devRef .tc main_v6) := by after_results
theorem h1_v8 : StableHlo.after hostOps1 W (Proc.devRef .tc main_v8) = W (Proc.devRef .tc main_v8) := by after_results
theorem h1_v9 : StableHlo.after hostOps1 W (Proc.devRef .tc main_v9) = W (Proc.devRef .tc main_v9) := by after_results
theorem h1_v10 : StableHlo.after hostOps1 W (Proc.devRef .tc main_v10) = W (Proc.devRef .tc main_v10) := by after_results
theorem h1_arg6 : StableHlo.after hostOps1 W (Proc.devRef .tc main_arg6) = W (Proc.devRef .tc main_arg6) := by after_results

theorem h2_v33 : StableHlo.after hostOps2 W (Proc.devRef .tc main_v33)
    = agg (W (Proc.devRef .tc main_v1)) (W (Proc.devRef .tc main_v3)) (W (Proc.devRef .tc main_v23)) := by
  after_results; rfl
theorem h2_v34 : StableHlo.after hostOps2 W (Proc.devRef .tc main_v34) = rowOf (W (Proc.devRef .tc main_arg6)) := by
  after_results; rfl
theorem h2_v6 : StableHlo.after hostOps2 W (Proc.devRef .tc main_v6) = W (Proc.devRef .tc main_v6) := by after_results
theorem h2_v10 : StableHlo.after hostOps2 W (Proc.devRef .tc main_v10) = W (Proc.devRef .tc main_v10) := by after_results

end Stretches

/-! ## Through the program: the result buffer at the return is `outK` of the arguments -/

section Through
variable (m : (ℓ : Loc nD τ sig) → Buf (Elt Ideal) ℓ) (ρ : Dev nD → PrngReg) (c : Dev nD)

/-- The fold of the three host stretches and the three kernels' write-backs, read at the result buffer: each stretch
    by its operations' functions, each kernel by its whole-array function of the arrays it was entered with, every
    buffer a later step reads carried unchanged through the steps that do not write it. -/
theorem result_eq : W6 m ρ c (Proc.devRef .tc main_v35)
    = outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  -- after the first stretch
  have a_v1 : W1 m ρ c (Proc.devRef .tc main_v1) = v1Of (m ((c : Thread nD τ).loc main_arg1)) := h0_v1 (W0 m ρ c)
  have a_v3 : W1 m ρ c (Proc.devRef .tc main_v3) = v3Of (m ((c : Thread nD τ).loc main_arg1)) := h0_v3 (W0 m ρ c)
  have a_v6 : W1 m ρ c (Proc.devRef .tc main_v6)
      = eaAgg (v3Of (m ((c : Thread nD τ).loc main_arg1))) (m ((c : Thread nD τ).loc main_arg2)) := h0_v6 (W0 m ρ c)
  have a_v7 : W1 m ρ c (Proc.devRef .tc main_v7) = top (m ((c : Thread nD τ).loc main_arg3)) := h0_v7 (W0 m ρ c)
  have a_v8 : W1 m ρ c (Proc.devRef .tc main_v8) = bot (m ((c : Thread nD τ).loc main_arg3)) := h0_v8 (W0 m ρ c)
  have a_v9 : W1 m ρ c (Proc.devRef .tc main_v9) = top (m ((c : Thread nD τ).loc main_arg5)) := h0_v9 (W0 m ρ c)
  have a_v10 : W1 m ρ c (Proc.devRef .tc main_v10) = bot (m ((c : Thread nD τ).loc main_arg5)) := h0_v10 (W0 m ρ c)
  have a_arg0 : W1 m ρ c (Proc.devRef .tc main_arg0) = m ((c : Thread nD τ).loc main_arg0) := h0_arg0 (W0 m ρ c)
  have a_arg4 : W1 m ρ c (Proc.devRef .tc main_arg4) = m ((c : Thread nD τ).loc main_arg4) := h0_arg4 (W0 m ρ c)
  have a_arg6 : W1 m ρ c (Proc.devRef .tc main_arg6) = m ((c : Thread nD τ).loc main_arg6) := h0_arg6 (W0 m ρ c)
  -- after the first kernel
  have b_v11 : W2 m ρ c (Proc.devRef .tc main_v11)
      = KRegion0.Y (W1 m ρ c (Proc.devRef .tc main_arg0)) (W1 m ρ c (Proc.devRef .tc main_v7)) :=
    (W2_arr m ρ c 2).trans (KRegion0.final (V1 m ρ) c)
  have b_v1 : W2 m ρ c (Proc.devRef .tc main_v1) = W1 m ρ c (Proc.devRef .tc main_v1) := W2_of_ne m ρ c main_v1 (by decide)
  have b_v3 : W2 m ρ c (Proc.devRef .tc main_v3) = W1 m ρ c (Proc.devRef .tc main_v3) := W2_of_ne m ρ c main_v3 (by decide)
  have b_v6 : W2 m ρ c (Proc.devRef .tc main_v6) = W1 m ρ c (Proc.devRef .tc main_v6) := W2_of_ne m ρ c main_v6 (by decide)
  have b_v8 : W2 m ρ c (Proc.devRef .tc main_v8) = W1 m ρ c (Proc.devRef .tc main_v8) := W2_of_ne m ρ c main_v8 (by decide)
  have b_v9 : W2 m ρ c (Proc.devRef .tc main_v9) = W1 m ρ c (Proc.devRef .tc main_v9) := W2_of_ne m ρ c main_v9 (by decide)
  have b_v10 : W2 m ρ c (Proc.devRef .tc main_v10) = W1 m ρ c (Proc.devRef .tc main_v10) := W2_of_ne m ρ c main_v10 (by decide)
  have b_arg4 : W2 m ρ c (Proc.devRef .tc main_arg4) = W1 m ρ c (Proc.devRef .tc main_arg4) := W2_of_ne m ρ c main_arg4 (by decide)
  have b_arg6 : W2 m ρ c (Proc.devRef .tc main_arg6) = W1 m ρ c (Proc.devRef .tc main_arg6) := W2_of_ne m ρ c main_arg6 (by decide)
  -- after the second stretch
  have c_v21 : W3 m ρ c (Proc.devRef .tc main_v21)
      = agg (W2 m ρ c (Proc.devRef .tc main_v1)) (W2 m ρ c (Proc.devRef .tc main_v3)) (W2 m ρ c (Proc.devRef .tc main_v11)) :=
    h1_v21 (W2 m ρ c)
  have c_v22 : W3 m ρ c (Proc.devRef .tc main_v22) = rowOf (W2 m ρ c (Proc.devRef .tc main_arg4)) := h1_v22 (W2 m ρ c)
  have c_v1 : W3 m ρ c (Proc.devRef .tc main_v1) = W2 m ρ c (Proc.devRef .tc main_v1) := h1_v1 (W2 m ρ c)
  have c_v3 : W3 m ρ c (Proc.devRef .tc main_v3) = W2 m ρ c (Proc.devRef .tc main_v3) := h1_v3 (W2 m ρ c)
  have c_v6 : W3 m ρ c (Proc.devRef .tc main_v6) = W2 m ρ c (Proc.devRef .tc main_v6) := h1_v6 (W2 m ρ c)
  have c_v8 : W3 m ρ c (Proc.devRef .tc main_v8) = W2 m ρ c (Proc.devRef .tc main_v8) := h1_v8 (W2 m ρ c)
  have c_v9 : W3 m ρ c (Proc.devRef .tc main_v9) = W2 m ρ c (Proc.devRef .tc main_v9) := h1_v9 (W2 m ρ c)
  have c_v10 : W3 m ρ c (Proc.devRef .tc main_v10) = W2 m ρ c (Proc.devRef .tc main_v10) := h1_v10 (W2 m ρ c)
  have c_arg6 : W3 m ρ c (Proc.devRef .tc main_arg6) = W2 m ρ c (Proc.devRef .tc main_arg6) := h1_arg6 (W2 m ρ c)
  -- after the second kernel
  have d_v23 : W4 m ρ c (Proc.devRef .tc main_v23)
      = KRegion1.Y2 (W3 m ρ c (Proc.devRef .tc main_v21)) (W3 m ρ c (Proc.devRef .tc main_v6)) (W3 m ρ c (Proc.devRef .tc main_v8))
          (W3 m ρ c (Proc.devRef .tc main_v22)) (W3 m ρ c (Proc.devRef .tc main_v9)) :=
    (W4_arr m ρ c 5).trans (KRegion1.final (V3 m ρ) c)
  have d_v6 : W4 m ρ c (Proc.devRef .tc main_v6) = W3 m ρ c (Proc.devRef .tc main_v6) :=
    (W4_arr m ρ c 1).trans (((dat1 (V3 m ρ) c).arrAt_in 1 rfl _).trans (A_eq1 (V3 m ρ) c 1))
  have d_v1 : W4 m ρ c (Proc.devRef .tc main_v1) = W3 m ρ c (Proc.devRef .tc main_v1) := W4_of_ne m ρ c main_v1 (by decide)
  have d_v3 : W4 m ρ c (Proc.devRef .tc main_v3) = W3 m ρ c (Proc.devRef .tc main_v3) := W4_of_ne m ρ c main_v3 (by decide)
  have d_v10 : W4 m ρ c (Proc.devRef .tc main_v10) = W3 m ρ c (Proc.devRef .tc main_v10) := W4_of_ne m ρ c main_v10 (by decide)
  have d_arg6 : W4 m ρ c (Proc.devRef .tc main_arg6) = W3 m ρ c (Proc.devRef .tc main_arg6) := W4_of_ne m ρ c main_arg6 (by decide)
  -- after the third stretch
  have e_v33 : W5 m ρ c (Proc.devRef .tc main_v33)
      = agg (W4 m ρ c (Proc.devRef .tc main_v1)) (W4 m ρ c (Proc.devRef .tc main_v3)) (W4 m ρ c (Proc.devRef .tc main_v23)) :=
    h2_v33 (W4 m ρ c)
  have e_v34 : W5 m ρ c (Proc.devRef .tc main_v34) = rowOf (W4 m ρ c (Proc.devRef .tc main_arg6)) := h2_v34 (W4 m ρ c)
  have e_v6 : W5 m ρ c (Proc.devRef .tc main_v6) = W4 m ρ c (Proc.devRef .tc main_v6) := h2_v6 (W4 m ρ c)
  have e_v10 : W5 m ρ c (Proc.devRef .tc main_v10) = W4 m ρ c (Proc.devRef .tc main_v10) := h2_v10 (W4 m ρ c)
  -- after the third kernel
  have f_v35 : W6 m ρ c (Proc.devRef .tc main_v35)
      = KRegion2.Y3 (W5 m ρ c (Proc.devRef .tc main_v33)) (W5 m ρ c (Proc.devRef .tc main_v6)) (W5 m ρ c (Proc.devRef .tc main_v10))
          (W5 m ρ c (Proc.devRef .tc main_v34)) :=
    (W6_arr m ρ c 4).trans (KRegion2.final (V5 m ρ) c)
  rw [f_v35, e_v33, e_v34, e_v6, e_v10, d_v23, d_v6, d_v1, d_v3, d_v10, d_arg6, c_v21, c_v22, c_v1, c_v3, c_v6, c_v8, c_v9,
    c_v10, c_arg6, b_v11, b_v1, b_v3, b_v6, b_v8, b_v9, b_v10, b_arg4, b_arg6, a_v1, a_v3, a_v6, a_v7, a_v8, a_v9, a_v10,
    a_arg0, a_arg4, a_arg6]
  rfl

end Through

end Cert.EdgeGcn.KHost

end
-- ==== Proof.Spec.lean ====
/-
  The message-passing layer on the extended reals, in the two arrangements the two programs compute, and the law
  that joins them.

  Edge `e` reads node row `r e` and is added into the node rows `v` with `e ∈ H v`. One layer sends every edge the
  message `X[r e] · Wx + A[e] · We`, sums the messages landing on each node, and adds a bias:

      ref  v j = (0 + Σ_{e ∈ H v} (Σ_k X (r e) k · Wx k j + Σ_c A e c · We c j)) + b j.

  The other arrangement first sums the edge attributes landing on each node, `Ā v c = 0 + Σ_{e ∈ H v} A e c`, and
  multiplies once per node:

      ker  v j = ((0 + Σ_{e ∈ H v} Σ_k X (r e) k · Wx k j) + Σ_c Ā v c · We c j) + b j.

  A sum of sums splits without any hypothesis (addition on the extended reals is commutative and associative), but
  moving the factor `We c j` across the sum over edges is distributivity, which fails at infinities: it is used only
  where the edge attributes and the edge weights are real numbers.
-/
import Mathlib.Data.EReal.Inv
import Mathlib.Algebra.BigOperators.Ring.Finset
import Mathlib.Algebra.BigOperators.Group.Finset.Basic

noncomputable section

open scoped BigOperators

namespace Cert.EdgeGcn

variable {E N K C J : Type} [Fintype K] [Fintype C]

/-- One layer as a sum of per-edge messages. -/
def layerRef (H : N → Finset E) (r : E → N) (A : E → C → EReal) (X : N → K → EReal) (Wx : K → J → EReal)
    (We : C → J → EReal) (b : J → EReal) (v : N) (j : J) : EReal :=
  (0 + ∑ e ∈ H v, ((∑ k, X (r e) k * Wx k j) + ∑ c, A e c * We c j)) + b j

/-- One layer with the edge attributes summed per node first. -/
def layerKer (H : N → Finset E) (r : E → N) (A : E → C → EReal) (X : N → K → EReal) (Wx : K → J → EReal)
    (We : C → J → EReal) (b : J → EReal) (v : N) (j : J) : EReal :=
  ((0 + ∑ e ∈ H v, (∑ k, X (r e) k * Wx k j)) + ∑ c, (0 + ∑ e ∈ H v, A e c) * We c j) + b j

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor moves across a finite sum of reals, inside the extended reals. -/
theorem sum_mul_real {ι : Type} (s : Finset ι) (f : ι → EReal) (w : EReal) (hf : ∀ i, ∃ a : ℝ, f i = a)
    (hw : ∃ a : ℝ, w = a) : (∑ i ∈ s, f i) * w = ∑ i ∈ s, f i * w := by
  choose a ha using hf
  obtain ⟨u, rfl⟩ := hw
  simp only [ha]
  rw [← coe_sum, ← EReal.coe_mul, Finset.sum_mul, coe_sum]
  exact Finset.sum_congr rfl fun i _ => EReal.coe_mul _ _

/-- THE LAW: with real edge attributes and real edge weights the two arrangements of a layer agree, whatever the
    node features, the node weights and the bias are. -/
theorem layerKer_eq_layerRef (H : N → Finset E) (r : E → N) (A : E → C → EReal) (X : N → K → EReal)
    (Wx : K → J → EReal) (We : C → J → EReal) (b : J → EReal)
    (hA : ∀ e c, ∃ a : ℝ, A e c = a) (hW : ∀ c j, ∃ a : ℝ, We c j = a) :
    layerKer H r A X Wx We b = layerRef H r A X Wx We b := by
  funext v j
  unfold layerKer layerRef
  simp only [zero_add]
  rw [Finset.sum_add_distrib]
  congr 2
  rw [Finset.sum_comm]
  exact Finset.sum_congr rfl fun c _ => sum_mul_real (H v) (fun e => A e c) (We c j) (fun e => hA e c) (hW c j)

/-- Two layers with a rectifier between them, per-edge messages. -/
def netRef (H : N → Finset E) (r : E → N) (A : E → C → EReal) (X : N → K → EReal) (Wx1 : K → K → EReal)
    (We1 : C → K → EReal) (b1 : K → EReal) (Wx2 : K → J → EReal) (We2 : C → J → EReal) (b2 : J → EReal) : N → J → EReal :=
  layerRef H r A (fun n k => max (layerRef H r A X Wx1 We1 b1 n k) 0) Wx2 We2 b2

/-- Two layers with a rectifier between them, attributes summed per node first. -/
def netKer (H : N → Finset E) (r : E → N) (A : E → C → EReal) (X : N → K → EReal) (Wx1 : K → K → EReal)
    (We1 : C → K → EReal) (b1 : K → EReal) (Wx2 : K → J → EReal) (We2 : C → J → EReal) (b2 : J → EReal) : N → J → EReal :=
  layerKer H r A (fun n k => max (layerKer H r A X Wx1 We1 b1 n k) 0) Wx2 We2 b2

/-- The two-layer network is the same in both arrangements, under the same finiteness. -/
theorem netKer_eq_netRef (H : N → Finset E) (r : E → N) (A : E → C → EReal) (X : N → K → EReal) (Wx1 : K → K → EReal)
    (We1 : C → K → EReal) (b1 : K → EReal) (Wx2 : K → J → EReal) (We2 : C → J → EReal) (b2 : J → EReal)
    (hA : ∀ e c, ∃ a : ℝ, A e c = a) (hW1 : ∀ c j, ∃ a : ℝ, We1 c j = a) (hW2 : ∀ c j, ∃ a : ℝ, We2 c j = a) :
    netKer H r A X Wx1 We1 b1 Wx2 We2 b2 = netRef H r A X Wx1 We1 b1 Wx2 We2 b2 := by
  unfold netKer netRef
  rw [layerKer_eq_layerRef H r A X Wx1 We1 b1 hA hW1, layerKer_eq_layerRef H r A _ Wx2 We2 b2 hA hW2]

end Cert.EdgeGcn

end
-- ==== Proof.Net.lean ====
/-
  The two-layer edge network at this certificate's sizes: 50000 nodes, 800000 edges, 128 node features, 16 edge
  attributes. Edge `e` reads the node row named by the source column at `e`, clamped into the table; it lands on
  node `v` when the destination column at `e`, read as a signed integer, is `v` (a destination outside the table
  lands nowhere). The node weights are the first 128 rows of a 144 × 128 matrix, the edge weights its last 16.
-/
import proofs.«104050_j77962246357191_2_alg».proof.Proof.Spec
import Idealize.ShloMosaic.Lib.ValueIdx

noncomputable section

open scoped BigOperators

namespace Cert.EdgeGcn

open Idealize.ShloMosaic Idealize.ShloMosaic.ValueIdx

/-- The edges landing on node `v`. -/
abbrev hit (dst : IVec ⟨2, ![800000, 1]⟩ 32) (v : Fin 50000) : Finset (Fin 800000) :=
  Finset.univ.filter (fun e : Fin 800000 => (dst (ix2 e (0 : Fin 1))).toInt = (v.val : Int))

/-- The node row edge `e` reads. -/
abbrev rowOf (src : IVec ⟨2, ![800000, 1]⟩ 32) (e : Fin 800000) : Fin 50000 :=
  ⟨min (src (ix2 e (0 : Fin 1))).toInt.toNat (50000 - 1), by omega⟩

/-- The node-feature rows of a stacked weight matrix. -/
def wTop (W : (⟨2, ![144, 128]⟩ : Shape).Idx → EReal) (k : Fin 128) (j : Fin 128) : EReal :=
  W (ix2 (⟨k.val, by omega⟩ : Fin 144) j)

/-- The edge-attribute rows of a stacked weight matrix. -/
def wBot (W : (⟨2, ![144, 128]⟩ : Shape).Idx → EReal) (c : Fin 16) (j : Fin 128) : EReal :=
  W (ix2 (⟨128 + c.val, by omega⟩ : Fin 144) j)

/-- The network as a sum of per-edge messages, at entry `(v, j)`. -/
def outRef (src dst : IVec ⟨2, ![800000, 1]⟩ 32) (x : (⟨2, ![50000, 128]⟩ : Shape).Idx → EReal)
    (ea : (⟨2, ![800000, 16]⟩ : Shape).Idx → EReal) (W1 : (⟨2, ![144, 128]⟩ : Shape).Idx → EReal)
    (b1 : (⟨1, ![128]⟩ : Shape).Idx → EReal) (W2 : (⟨2, ![144, 128]⟩ : Shape).Idx → EReal)
    (b2 : (⟨1, ![128]⟩ : Shape).Idx → EReal) (v : Fin 50000) (j : Fin 128) : EReal :=
  netRef (hit dst) (rowOf src) (fun e c => ea (ix2 e c)) (fun n k => x (ix2 n k)) (wTop W1) (wBot W1)
    (fun j => b1 (ix1 j)) (wTop W2) (wBot W2) (fun j => b2 (ix1 j)) v j

/-- The network with the edge attributes summed per node first, at entry `(v, j)`. -/
def outKer (src dst : IVec ⟨2, ![800000, 1]⟩ 32) (x : (⟨2, ![50000, 128]⟩ : Shape).Idx → EReal)
    (ea : (⟨2, ![800000, 16]⟩ : Shape).Idx → EReal) (W1 : (⟨2, ![144, 128]⟩ : Shape).Idx → EReal)
    (b1 : (⟨1, ![128]⟩ : Shape).Idx → EReal) (W2 : (⟨2, ![144, 128]⟩ : Shape).Idx → EReal)
    (b2 : (⟨1, ![128]⟩ : Shape).Idx → EReal) (v : Fin 50000) (j : Fin 128) : EReal :=
  netKer (hit dst) (rowOf src) (fun e c => ea (ix2 e c)) (fun n k => x (ix2 n k)) (wTop W1) (wBot W1)
    (fun j => b1 (ix1 j)) (wTop W2) (wBot W2) (fun j => b2 (ix1 j)) v j

/-- With real edge attributes and real weights the two arrangements give the same network. -/
theorem outKer_eq_outRef (src dst : IVec ⟨2, ![800000, 1]⟩ 32) (x : (⟨2, ![50000, 128]⟩ : Shape).Idx → EReal)
    (ea : (⟨2, ![800000, 16]⟩ : Shape).Idx → EReal) (W1 : (⟨2, ![144, 128]⟩ : Shape).Idx → EReal)
    (b1 : (⟨1, ![128]⟩ : Shape).Idx → EReal) (W2 : (⟨2, ![144, 128]⟩ : Shape).Idx → EReal)
    (b2 : (⟨1, ![128]⟩ : Shape).Idx → EReal)
    (hea : ∀ i, ∃ r : ℝ, ea i = (r : EReal)) (hW1 : ∀ i, ∃ r : ℝ, W1 i = (r : EReal))
    (hW2 : ∀ i, ∃ r : ℝ, W2 i = (r : EReal)) :
    outKer src dst x ea W1 b1 W2 b2 = outRef src dst x ea W1 b1 W2 b2 := by
  funext v j
  unfold outKer outRef
  exact congrFun (congrFun (netKer_eq_netRef (hit dst) (rowOf src) (fun e c => ea (ix2 e c)) (fun n k => x (ix2 n k))
    (wTop W1) (wBot W1) (fun j => b1 (ix1 j)) (wTop W2) (wBot W2) (fun j => b2 (ix1 j))
    (fun e c => hea _) (fun c j => hW1 _) (fun c j => hW2 _)) v) j

end Cert.EdgeGcn

end
-- ==== Proof.LibRows.lean ====
/-
  Row gathers and row scatter-adds read at an index.

  A segment sum `segment_sum(u, seg, n)` over a flat array `u : [M]` or over rows `u : [M, C]`, and a row lookup
  `x[seg]` of `x : [N]` or `x : [N, C]`, lower to `stablehlo.scatter` / `stablehlo.gather` whose start indices are the
  column `seg[:, None] : [M, 1]`. This module fixes those four sets of dimension numbers and reads them at an index:

  * the scatter's update `e` (or `(e, c)`) lands on element `v` (or `(v, c')`) exactly when the start index
    `seg[e]`, read as a signed integer, is `v` (and `c = c'`); a start index outside `[0, N)` lands nowhere;
  * so, on the extended reals, the accumulating scatter at `v` is the operand's element plus the sum of the updates
    over the set `{e | seg[e] = v}`;
  * the gather's element `e` is the operand at the start index `seg[e]` clamped into `[0, N - 1]`.
-/
import Idealize.ShloMosaic.Lib.ValueIdx
import Idealize.ShloMosaic.PureOps.Ideal

noncomputable section

open scoped BigOperators

namespace Cert.LibRows

open Idealize.ShloMosaic Idealize.ShloMosaic.ValueIdx

/-- The start-index column's entry for row `e`: the index `[e, 0]` of an `[M, 1]` array. -/
abbrev col {M : Nat} (e : Fin M) : (⟨2, ![M, 1]⟩ : Shape).Idx := ix2 e (0 : Fin 1)

/-! ## Scatter of a flat array: operand `[N]`, start indices `[M, 1]`, updates `[M]` -/

/-- `inserted_window_dims = [0]`, `scatter_dims_to_operand_dims = [0]`, `index_vector_dim = 1`, no window axes. -/
abbrev scat1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Scat1
variable {N M w : Nat} (wf : ScatterDims.WF ⟨1, ![N]⟩ ⟨2, ![M, 1]⟩ ⟨1, ![M]⟩ [] [0] [0] 1)

/-- Update `j` starts at its row's start index, read signed. -/
theorem scat1_start (j : (⟨1, ![M]⟩ : Shape).Idx) (idx : IVec ⟨2, ![M, 1]⟩ w) :
    (scat1 N M wf).start j idx 0 = (idx (col (j 0))).toInt := by
  unfold ScatterDims.start
  rw [dif_pos (show (0 : Fin 1) ∈ (scat1 N M wf).scatterDimsToOperandDims from List.mem_singleton.mpr rfl)]
  have hsi : (scat1 N M wf).siIdx j ⟨List.idxOf (0 : Fin 1) (scat1 N M wf).scatterDimsToOperandDims,
      List.idxOf_lt_length_iff.2 (List.mem_singleton.mpr rfl)⟩ = col (j 0) := by
    funext b; refine Fin.ext ?_
    match b with
    | ⟨0, _⟩ => rfl
    | ⟨1, _⟩ => rfl
  rw [hsi]
  rfl

/-- The operand's one axis is inserted: no window coordinate. -/
theorem scat1_window (j : (⟨1, ![M]⟩ : Shape).Idx) : (scat1 N M wf).window j 0 = 0 := by
  unfold ScatterDims.window
  have h : (0 : Fin 1) ∉ (scat1 N M wf).sKept :=
    (by decide : (0 : Fin 1) ∉ (List.finRange 1).filter (fun a => a ∉ [(0 : Fin 1)]))
  rw [dif_neg h]

/-- UPDATE `e` LANDS ON ELEMENT `v` exactly when its start index is `v`. -/
theorem scat1_resultIdx (e : Fin M) (idx : IVec ⟨2, ![M, 1]⟩ w) (v : Fin N) :
    (scat1 N M wf).resultIdx? (ix1 e) idx = some (ix1 v) ↔ (idx (col e)).toInt = (v.val : Int) := by
  have hs : (scat1 N M wf).start (ix1 e) idx 0 + ((scat1 N M wf).window (ix1 e) 0 : Int) = (idx (col e)).toInt := by
    rw [scat1_start, scat1_window, Nat.cast_zero, add_zero]; rfl
  have hv : v.val < N := v.isLt
  unfold ScatterDims.resultIdx?
  split
  · next h =>
    rw [Option.some.injEq]
    constructor
    · intro hq
      have h1 : ((scat1 N M wf).start (ix1 e) idx 0 + ((scat1 N M wf).window (ix1 e) 0 : Int)).toNat = v.val :=
        congrArg (fun f : (⟨1, ![N]⟩ : Shape).Idx => (f 0).val) hq
      have h0 := (h 0).1
      rw [hs] at h1 h0
      omega
    · intro hq
      funext a
      obtain rfl : a = 0 := Subsingleton.elim _ _
      refine Fin.ext ?_
      show ((scat1 N M wf).start (ix1 e) idx 0 + ((scat1 N M wf).window (ix1 e) 0 : Int)).toNat = v.val
      rw [hs, hq]; simp
  · next h =>
    constructor
    · intro hq; exact absurd hq (by simp)
    · intro hq
      refine absurd (fun a => ?_) h
      obtain rfl : a = 0 := Subsingleton.elim _ _
      rw [hs, hq]
      exact ⟨by omega, by show (v.val : Int) < ((N : Nat) : Int); omega⟩

/-- THE ACCUMULATING SCATTER AT ELEMENT `v`, on the extended reals: the operand's element plus the updates whose
    start index is `v`. -/
theorem scat1_apply (x : (⟨1, ![N]⟩ : Shape).Idx → EReal) (idx : IVec ⟨2, ![M, 1]⟩ w)
    (upd : (⟨1, ![M]⟩ : Shape).Idx → EReal) (v : Fin N) :
    Ideal.hostScatterAdd (scat1 N M wf) x idx upd (ix1 v)
      = x (ix1 v) + ∑ e ∈ Finset.univ.filter (fun e : Fin M => (idx (col e)).toInt = (v.val : Int)), upd (ix1 e) := by
  unfold Ideal.hostScatterAdd
  refine congrArg (x (ix1 v) + ·) ?_
  refine Finset.sum_nbij' (fun j => (j 0 : Fin M)) (fun e => ix1 e) ?_ ?_ ?_ ?_ ?_
  · intro j hj
    have hj' := (Finset.mem_filter.mp hj).2
    rw [eq_ix1 j] at hj'
    exact Finset.mem_filter.mpr ⟨Finset.mem_univ _, (scat1_resultIdx wf _ idx v).mp hj'⟩
  · intro e he
    exact Finset.mem_filter.mpr ⟨Finset.mem_univ _, (scat1_resultIdx wf e idx v).mpr (Finset.mem_filter.mp he).2⟩
  · intro j _; exact (eq_ix1 j).symm
  · intro e _; rfl
  · intro j _; exact congrArg upd (eq_ix1 j)

end Scat1

/-! ## Scatter of rows: operand `[N, C]`, start indices `[M, 1]`, updates `[M, C]` -/

/-- `update_window_dims = [1]`, `inserted_window_dims = [0]`, `scatter_dims_to_operand_dims = [0]`,
    `index_vector_dim = 1`. -/
abbrev scat2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Scat2
variable {N M C w : Nat} (wf : ScatterDims.WF ⟨2, ![N, C]⟩ ⟨2, ![M, 1]⟩ ⟨2, ![M, C]⟩ [1] [0] [0] 1)

/-- On the row axis update `j` starts at its row's start index, read signed. -/
theorem scat2_start0 (j : (⟨2, ![M, C]⟩ : Shape).Idx) (idx : IVec ⟨2, ![M, 1]⟩ w) :
    (scat2 N M C wf).start j idx 0 = (idx (col (j 0))).toInt := by
  unfold ScatterDims.start
  rw [dif_pos (show (0 : Fin 2) ∈ (scat2 N M C wf).scatterDimsToOperandDims from List.mem_singleton.mpr rfl)]
  have hsi : (scat2 N M C wf).siIdx j ⟨List.idxOf (0 : Fin 2) (scat2 N M C wf).scatterDimsToOperandDims,
      List.idxOf_lt_length_iff.2 (List.mem_singleton.mpr rfl)⟩ = col (j 0) := by
    funext b; refine Fin.ext ?_
    match b with
    | ⟨0, _⟩ => rfl
    | ⟨1, _⟩ => rfl
  rw [hsi]
  rfl

/-- The column axis is not indexed: the window starts at `0` there. -/
theorem scat2_start1 (j : (⟨2, ![M, C]⟩ : Shape).Idx) (idx : IVec ⟨2, ![M, 1]⟩ w) :
    (scat2 N M C wf).start j idx 1 = 0 := by
  unfold ScatterDims.start
  rw [dif_neg (show (1 : Fin 2) ∉ [(0 : Fin 2)] by decide)]

/-- The row axis is inserted: no window coordinate. -/
theorem scat2_window0 (j : (⟨2, ![M, C]⟩ : Shape).Idx) : (scat2 N M C wf).window j 0 = 0 := by
  unfold ScatterDims.window
  have h : (0 : Fin 2) ∉ (scat2 N M C wf).sKept :=
    (by decide : (0 : Fin 2) ∉ (List.finRange 2).filter (fun a => a ∉ [(0 : Fin 2)]))
  rw [dif_neg h]

/-- The column axis carries the update's column. -/
theorem scat2_window1 (j : (⟨2, ![M, C]⟩ : Shape).Idx) : (scat2 N M C wf).window j 1 = (j 1).val := by
  unfold ScatterDims.window
  have h : (1 : Fin 2) ∈ (scat2 N M C wf).sKept :=
    (by decide : (1 : Fin 2) ∈ (List.finRange 2).filter (fun a => a ∉ [(0 : Fin 2)]))
  rw [dif_pos h]
  rfl

/-- UPDATE `(e, c)` LANDS ON ELEMENT `(v, c')` exactly when row `e`'s start index is `v` and `c = c'`. -/
theorem scat2_resultIdx (e : Fin M) (c : Fin C) (idx : IVec ⟨2, ![M, 1]⟩ w) (v : Fin N) (c' : Fin C) :
    (scat2 N M C wf).resultIdx? (ix2 e c) idx = some (ix2 v c')
      ↔ (idx (col e)).toInt = (v.val : Int) ∧ c = c' := by
  have hs0 : (scat2 N M C wf).start (ix2 e c) idx 0 + ((scat2 N M C wf).window (ix2 e c) 0 : Int) = (idx (col e)).toInt := by
    rw [scat2_start0, scat2_window0, Nat.cast_zero, add_zero]; rfl
  have hs1 : (scat2 N M C wf).start (ix2 e c) idx 1 + ((scat2 N M C wf).window (ix2 e c) 1 : Int) = (c.val : Int) := by
    rw [scat2_start1, scat2_window1, zero_add]; rfl
  have hv : v.val < N := v.isLt
  have hc : c.val < C := c.isLt
  unfold ScatterDims.resultIdx?
  split
  · next h =>
    rw [Option.some.injEq]
    constructor
    · intro hq
      have h1 : ((scat2 N M C wf).start (ix2 e c) idx 0 + ((scat2 N M C wf).window (ix2 e c) 0 : Int)).toNat = v.val :=
        congrArg (fun f : (⟨2, ![N, C]⟩ : Shape).Idx => (f 0).val) hq
      have h2 : ((scat2 N M C wf).start (ix2 e c) idx 1 + ((scat2 N M C wf).window (ix2 e c) 1 : Int)).toNat = c'.val :=
        congrArg (fun f : (⟨2, ![N, C]⟩ : Shape).Idx => (f 1).val) hq
      have h0 := (h 0).1
      rw [hs0] at h1 h0
      rw [hs1] at h2
      exact ⟨by omega, Fin.ext (by omega)⟩
    · rintro ⟨hq, rfl⟩
      funext a
      refine Fin.ext ?_
      match a with
      | ⟨0, _⟩ =>
        show ((scat2 N M C wf).start (ix2 e c) idx 0 + ((scat2 N M C wf).window (ix2 e c) 0 : Int)).toNat = v.val
        rw [hs0, hq]; simp
      | ⟨1, _⟩ =>
        show ((scat2 N M C wf).start (ix2 e c) idx 1 + ((scat2 N M C wf).window (ix2 e c) 1 : Int)).toNat = c.val
        rw [hs1]; simp
  · next h =>
    constructor
    · intro hq; exact absurd hq (by simp)
    · rintro ⟨hq, rfl⟩
      refine absurd (fun a => ?_) h
      match a with
      | ⟨0, _⟩ =>
        show 0 ≤ (scat2 N M C wf).start (ix2 e c) idx 0 + ((scat2 N M C wf).window (ix2 e c) 0 : Int)
          ∧ (scat2 N M C wf).start (ix2 e c) idx 0 + ((scat2 N M C wf).window (ix2 e c) 0 : Int) < ((N : Nat) : Int)
        rw [hs0, hq]; omega
      | ⟨1, _⟩ =>
        show 0 ≤ (scat2 N M C wf).start (ix2 e c) idx 1 + ((scat2 N M C wf).window (ix2 e c) 1 : Int)
          ∧ (scat2 N M C wf).start (ix2 e c) idx 1 + ((scat2 N M C wf).window (ix2 e c) 1 : Int) < ((C : Nat) : Int)
        rw [hs1]; omega

/-- THE ACCUMULATING SCATTER AT ELEMENT `(v, c)`, on the extended reals: the operand's element plus column `c` of the
    update rows whose start index is `v`. -/
theorem scat2_apply (x : (⟨2, ![N, C]⟩ : Shape).Idx → EReal) (idx : IVec ⟨2, ![M, 1]⟩ w)
    (upd : (⟨2, ![M, C]⟩ : Shape).Idx → EReal) (v : Fin N) (c : Fin C) :
    Ideal.hostScatterAdd (scat2 N M C wf) x idx upd (ix2 v c)
      = x (ix2 v c) + ∑ e ∈ Finset.univ.filter (fun e : Fin M => (idx (col e)).toInt = (v.val : Int)), upd (ix2 e c) := by
  unfold Ideal.hostScatterAdd
  refine congrArg (x (ix2 v c) + ·) ?_
  have key : ∀ j : (⟨2, ![M, C]⟩ : Shape).Idx, j ∈ Finset.univ.filter
      (fun j => (scat2 N M C wf).resultIdx? j idx = some (ix2 v c)) →
      (idx (col (j 0 : Fin M))).toInt = (v.val : Int) ∧ (j 1 : Fin C) = c := by
    intro j hj
    have hj' := (Finset.mem_filter.mp hj).2
    rw [eq_ix2 j] at hj'
    exact (scat2_resultIdx wf _ _ idx v c).mp hj'
  refine Finset.sum_nbij' (fun j => (j 0 : Fin M)) (fun e => ix2 e c) ?_ ?_ ?_ ?_ ?_
  · intro j hj
    exact Finset.mem_filter.mpr ⟨Finset.mem_univ _, (key j hj).1⟩
  · intro e he
    exact Finset.mem_filter.mpr ⟨Finset.mem_univ _,
      (scat2_resultIdx wf e c idx v c).mpr ⟨(Finset.mem_filter.mp he).2, rfl⟩⟩
  · intro j hj
    show ix2 (j 0 : Fin M) c = j
    rw [← (key j hj).2]; exact (eq_ix2 j).symm
  · intro e _; rfl
  · intro j hj
    show upd j = upd (ix2 (j 0 : Fin M) c)
    rw [← (key j hj).2]; exact congrArg upd (eq_ix2 j)

end Scat2

/-! ## Gather from a flat array: operand `[N]`, start indices `[M, 1]`, result `[M]` -/

/-- `collapsed_slice_dims = [0]`, `start_index_map = [0]`, `index_vector_dim = 1`, `slice_sizes = [1]`. -/
abbrev gath1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER AT ELEMENT `e`: the operand at row `e`'s start index, read signed and clamped into `[0, N - 1]`. -/
theorem gath1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gath1 N M wf) x idx (ix1 e) = x (ix1 ⟨min (idx (col e)).toInt.toNat (N - 1), by omega⟩) := by
  unfold Host.gather
  congr 1
  funext a
  obtain rfl : a = 0 := Subsingleton.elim _ _
  refine Fin.ext ?_
  show (gath1 N M wf).start (ix1 e) idx 0 + (gath1 N M wf).batchCoord (ix1 e) 0 + (gath1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N M wf).startIndexMap from List.mem_singleton.mpr rfl)]
  have hsi : (gath1 N M wf).siIdx (ix1 e) ⟨List.idxOf (0 : Fin 1) (gath1 N M wf).startIndexMap,
      List.idxOf_lt_length_iff.2 (List.mem_singleton.mpr rfl)⟩ = col e := by
    funext b; refine Fin.ext ?_
    match b with
    | ⟨0, _⟩ => rfl
    | ⟨1, _⟩ => rfl
  rw [hsi]
  rfl

/-! ## Gather of rows: operand `[N, C]`, start indices `[M, 1]`, result `[M, C]` -/

/-- `offset_dims = [1]`, `collapsed_slice_dims = [0]`, `start_index_map = [0]`, `index_vector_dim = 1`,
    `slice_sizes = [1, C]`. -/
abbrev gath2 (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER AT ELEMENT `(e, c)`: column `c` of the operand's row at row `e`'s start index, read signed and
    clamped into `[0, N - 1]`. -/
theorem gath2_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (gath2 N M C wf) x idx (ix2 e c)
      = x (ix2 ⟨min (idx (col e)).toInt.toNat (N - 1), by omega⟩ c) := by
  unfold Host.gather
  congr 1
  funext a
  refine Fin.ext ?_
  match a with
  | ⟨0, _⟩ =>
    show (gath2 N M C wf).start (ix2 e c) idx 0 + (gath2 N M C wf).batchCoord (ix2 e c) 0
      + (gath2 N M C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N M C wf).startIndexMap from List.mem_singleton.mpr rfl)]
    have hsi : (gath2 N M C wf).siIdx (ix2 e c) ⟨List.idxOf (0 : Fin 2) (gath2 N M C wf).startIndexMap,
        List.idxOf_lt_length_iff.2 (List.mem_singleton.mpr rfl)⟩ = col e := by
      funext b; refine Fin.ext ?_
      match b with
      | ⟨0, _⟩ => rfl
      | ⟨1, _⟩ => rfl
    rw [hsi]
    rfl
  | ⟨1, _⟩ =>
    show (gath2 N M C wf).start (ix2 e c) idx 1 + (gath2 N M C wf).batchCoord (ix2 e c) 1
      + (gath2 N M C wf).offCoord (ix2 e c) 1 = c.val
    rw [GatherDims.batchCoord_eq_zero _ _ _ List.not_mem_nil]
    have h0 : (gath2 N M C wf).start (ix2 e c) idx 1 = 0 := by
      unfold GatherDims.start
      rw [dif_neg (show (1 : Fin 2) ∉ [(0 : Fin 2)] by decide)]
    have h1 : (gath2 N M C wf).offCoord (ix2 e c) 1 = c.val := by
      unfold GatherDims.offCoord
      have h : (1 : Fin 2) ∈ (gath2 N M C wf).sKept :=
        (GatherDims.mem_sKept _ _).mpr ⟨(by decide : (1 : Fin 2) ∉ [(0 : Fin 2)]), List.not_mem_nil⟩
      rw [dif_pos h]
      rfl
    rw [h0, h1, Nat.zero_add]

end Cert.LibRows

end
-- ==== Proof.KValue.lean ====
/-
  The kernel program's function read at an entry: the two-layer edge network with the edge attributes summed per
  node first.

  The three kernels' whole-array functions and the host operations between them, read at entry `(v, j)`: a row
  scatter-add from zeros is `0 +` the sum over the edges landing on the node, a row gather is the row the edge reads,
  a slice of the stacked weights is its node-feature or edge-attribute rows, the bias row is the bias. Put together,
  the program's result is the specification's second arrangement of the network, term for term.
-/
import proofs.«104050_j77962246357191_2_alg».proof.Proof.KHost
import proofs.«104050_j77962246357191_2_alg».proof.Proof.Net
import proofs.«104050_j77962246357191_2_alg».proof.Proof.LibRows
import Idealize.ShloMosaic.Lib.ValueIdx
import Idealize.ShloMosaic.Lib.IdealHost
import Idealize.ShloMosaic.PureOps.Ideal.Laws
import Idealize.ShloMosaic.Lib.Pipeline.Value

noncomputable section

open scoped BigOperators

namespace Cert.EdgeGcn.KValue

open Cert.KernelIdeal Cert.KernelIdeal.Gen Cert.EdgeGcn.KHost
open Idealize.ShloMosaic Idealize.ShloMosaic.ValueIdx

/-! ## The three kernels' functions at an entry -/

theorem Y_at (A0 : FVec Ideal S50000x128 .f32) (A1 : FVec Ideal S128x128 .f32) (v : Fin 50000) (j : Fin 128) :
    KRegion0.Y A0 A1 (ix2 v j) = ∑ k : Fin 128, A0 (ix2 v k) * A1 (ix2 k j) := rfl

theorem Y2_at (Ag : FVec Ideal S50000x128 .f32) (Ea : FVec Ideal S50000x16 .f32) (We : FVec Ideal S16x128 .f32)
    (B : FVec Ideal S1x128 .f32) (Wp : FVec Ideal S128x128 .f32) (v : Fin 50000) (j : Fin 128) :
    KRegion1.Y2 Ag Ea We B Wp (ix2 v j)
      = ∑ k : Fin 128, max ((Ag (ix2 v k) + ∑ c : Fin 16, Ea (ix2 v c) * We (ix2 c k)) + B (ix2 (0 : Fin 1) k)) 0 * Wp (ix2 k j) := rfl

theorem Y3_at (Ag : FVec Ideal S50000x128 .f32) (Ea : FVec Ideal S50000x16 .f32) (We : FVec Ideal S16x128 .f32)
    (B : FVec Ideal S1x128 .f32) (v : Fin 50000) (j : Fin 128) :
    KRegion2.Y3 Ag Ea We B (ix2 v j)
      = (Ag (ix2 v j) + ∑ c : Fin 16, Ea (ix2 v c) * We (ix2 c j)) + B (ix2 (0 : Fin 1) j) := rfl

/-! ## The host operations at an entry -/

/-- A scatter's starting array of zeros is zero at every index. -/
theorem zeros_at {T : Shape} (h : (⟨0, ![]⟩ : Shape).BroadcastsInDim T ![]) (i : T.Idx) :
    broadcastInDim T ![] h (constant (F := Ideal) S_ .f32 0x00000000#32) i = (0 : EReal) := by
  rw [broadcastInDim_scalar_apply, constant_apply]; exact Ideal.ofBits_zero_f32

/-- The accumulating row scatter of 16-column rows at entry `(v, c)`. -/
theorem scat16_read (Z : FVec Ideal S50000x16 .f32) (idx : IVec S800000x1 32) (upd : FVec Ideal S800000x16 .f32)
    (v : Fin 50000) (c : Fin 16) :
    Host.scatterAdd (F := Ideal) (φ := .f32) scatter_S50000x16_S800000x1_S800000x16_1_0_0_1 Z idx upd (ix2 v c)
      = Z (ix2 v c) + ∑ e ∈ hit idx v, upd (ix2 e c) :=
  LibRows.scat2_apply (N := 50000) (M := 800000) (C := 16) Gen.scatter_S50000x16_S800000x1_S800000x16_1_0_0_1_wf Z idx upd v c

/-- The accumulating row scatter of 128-column rows at entry `(v, j)`. -/
theorem scat128_read (Z : FVec Ideal S50000x128 .f32) (idx : IVec S800000x1 32) (upd : FVec Ideal S800000x128 .f32)
    (v : Fin 50000) (j : Fin 128) :
    Host.scatterAdd (F := Ideal) (φ := .f32) scatter_S50000x128_S800000x1_S800000x128_1_0_0_1 Z idx upd (ix2 v j)
      = Z (ix2 v j) + ∑ e ∈ hit idx v, upd (ix2 e j) :=
  LibRows.scat2_apply (N := 50000) (M := 800000) (C := 128) Gen.scatter_S50000x128_S800000x1_S800000x128_1_0_0_1_wf Z idx upd v j

/-- The row gather at entry `(e, k)`: column `k` of the row edge `e` reads. -/
theorem gath_read (X : FVec Ideal S50000x128 .f32) (idx : IVec S800000x1 32) (e : Fin 800000) (k : Fin 128) :
    Host.gather gather_S50000x128_S800000x1_S800000x128_1_0_n_n_0_1_1128 X idx (ix2 e k) = X (ix2 (Cert.EdgeGcn.rowOf idx e) k) :=
  LibRows.gath2_apply (N := 50000) (M := 800000) (C := 128) (by omega) Gen.gather_S50000x128_S800000x1_S800000x128_1_0_n_n_0_1_1128_wf X idx e k

/-- The per-node attribute sums at entry `(v, c)`. -/
theorem eaAgg_at (v3 : IVec S800000 32) (ea : FVec Ideal S800000x16 .f32) (v : Fin 50000) (c : Fin 16) :
    eaAgg v3 ea (ix2 v c) = 0 + ∑ e ∈ hit (dstCol v3) v, ea (ix2 e c) := by
  unfold eaAgg
  rw [scat16_read, zeros_at]

/-- Looked-up rows summed per node, at entry `(v, j)`. -/
theorem agg_at (v1 v3 : IVec S800000 32) (y : FVec Ideal S50000x128 .f32) (v : Fin 50000) (j : Fin 128) :
    agg v1 v3 y (ix2 v j) = 0 + ∑ e ∈ hit (dstCol v3) v, y (ix2 (Cert.EdgeGcn.rowOf (srcCol v1) e) j) := by
  unfold agg
  rw [scat128_read, zeros_at]
  exact congrArg (0 + ·) (Finset.sum_congr rfl fun e _ => gath_read y (srcCol v1) e j)

/-- The node-feature rows of the stacked weights at entry `(k, j)`. -/
theorem top_at (W : FVec Ideal S144x128 .f32) (k j : Fin 128) : KHost.top W (ix2 k j) = wTop W k j := by
  unfold KHost.top wTop
  exact extractStridedSlice_apply ![0, 0] W slices_S144x128_S128x128_0_0 (ix2 k j) (ix2 (⟨k.val, by omega⟩ : Fin 144) j)
    (fun a => match a with
      | ⟨0, _⟩ => by show k.val = 0 + k.val; omega
      | ⟨1, _⟩ => by show j.val = 0 + j.val; omega)

/-- The edge-attribute rows of the stacked weights at entry `(c, j)`. -/
theorem bot_at (W : FVec Ideal S144x128 .f32) (c : Fin 16) (j : Fin 128) : KHost.bot W (ix2 c j) = wBot W c j := by
  unfold KHost.bot wBot
  exact extractStridedSlice_apply ![128, 0] W slices_S144x128_S16x128_128_0 (ix2 c j) (ix2 (⟨128 + c.val, by omega⟩ : Fin 144) j)
    (fun a => match a with
      | ⟨0, _⟩ => by show 128 + c.val = 128 + c.val; rfl
      | ⟨1, _⟩ => by show j.val = 0 + j.val; omega)

/-- The bias row at entry `(0, j)`. -/
theorem row_at (b : FVec Ideal S128 .f32) (j : Fin 128) : KHost.rowOf b (ix2 (0 : Fin 1) j) = b (ix1 j) := by
  unfold KHost.rowOf
  exact shapeCast_apply b shapeCasts_S128_S1x128 (ix2 (0 : Fin 1) j) (ix1 j)
    (by rewrite [Shape.rowMajor_val_two, Shape.rowMajor_val_one]; show j.val = 0 * 128 + j.val; omega)

/-! ## The program's function -/

/-- THE KERNEL PROGRAM'S RESULT at entry `(v, j)` is the network with the attributes summed per node first, with the
    source and destination columns the program computes from its index argument. -/
theorem outK_apply (x : FVec Ideal S50000x128 .f32) (ei : IVec S2x800000 32) (ea : FVec Ideal S800000x16 .f32)
    (W1 : FVec Ideal S144x128 .f32) (b1 : FVec Ideal S128 .f32) (W2 : FVec Ideal S144x128 .f32)
    (b2 : FVec Ideal S128 .f32) (v : Fin 50000) (j : Fin 128) :
    outK x ei ea W1 b1 W2 b2 (ix2 v j)
      = outKer (srcCol (v1Of ei)) (dstCol (v3Of ei)) x ea W1 b1 W2 b2 v j := by
  unfold outK outKer netKer layerKer
  simp only [Y3_at, Y2_at, Y_at, agg_at, eaAgg_at, top_at, bot_at, row_at]

end Cert.EdgeGcn.KValue

end
-- ==== Proof.RefSide.lean ====
/-
  The reference program read at an entry: the two-layer edge network as a sum of per-edge messages.

  Each layer of the program gathers the node rows named by the source column, multiplies them by the first 128 rows
  of the stacked weight matrix, adds the edge attributes times the last 16 rows, sums the resulting messages onto the
  node rows named by the destination column (starting from zeros), and adds the bias; a rectifier sits between the
  layers. Read at entry `(v, j)` on the extended reals this is, term for term,

      (0 + Σ_{e lands on v} (Σ_k X[row e, k] · W[k, j] + Σ_c A[e, c] · W[128 + c, j])) + b[j],

  which is the specification's layer.
-/
import proofs.«104050_j77962246357191_2_alg».proof.Proof.Gen.ReferenceIdeal.Read
import proofs.«104050_j77962246357191_2_alg».proof.Proof.Net
import proofs.«104050_j77962246357191_2_alg».proof.Proof.LibRows
import Idealize.ShloMosaic.Lib.ValueIdx
import Idealize.ShloMosaic.PureOps.Ideal.Laws
import Idealize.ShloMosaic.Lib.Pipeline.Value

noncomputable section

open scoped BigOperators

namespace Cert.EdgeGcn.RefSide

open Cert.ReferenceIdeal Cert.ReferenceIdeal.Gen Cert.ReferenceIdeal.Read Idealize.ShloMosaic Idealize.ShloMosaic.ValueIdx
  Idealize.ShloMosaic.StableHlo

/-! ## The index columns -/

/-- The second layer recomputes the source column by the same operations on the same argument. -/
theorem src_again (x1 : (⟨S2x800000, .i32⟩ : BufTy).Contents (Elt Ideal)) :
    Read.val_main_v30 (F := Ideal) x1 = Read.val_main_v11 (F := Ideal) x1 := rfl

/-- Likewise the destination column. -/
theorem dst_again (x1 : (⟨S2x800000, .i32⟩ : BufTy).Contents (Elt Ideal)) :
    Read.val_main_v36 (F := Ideal) x1 = Read.val_main_v17 (F := Ideal) x1 := rfl

/-! ## The row scatter and the row gather at this program's sizes -/

/-- The accumulating row scatter at entry `(v, j)`: the operand there plus column `j` of the update rows landing on `v`. -/
theorem scat_read (Z : (⟨S50000x128, .f32⟩ : BufTy).Contents (Elt Ideal)) (idx : (⟨S800000x1, .i32⟩ : BufTy).Contents (Elt Ideal))
    (upd : (⟨S800000x128, .f32⟩ : BufTy).Contents (Elt Ideal)) (v : Fin 50000) (j : Fin 128) :
    Host.scatterAdd (F := Ideal) (φ := .f32) scatter_S50000x128_S800000x1_S800000x128_1_0_0_1 Z idx upd (ix2 v j)
      = Z (ix2 v j) + ∑ e ∈ hit idx v, upd (ix2 e j) :=
  LibRows.scat2_apply (N := 50000) (M := 800000) (C := 128) Gen.scatter_S50000x128_S800000x1_S800000x128_1_0_0_1_wf Z idx upd v j

/-- The row gather at entry `(e, k)`: column `k` of the operand's row that edge `e` reads. -/
theorem gath_read (X : (⟨S50000x128, .f32⟩ : BufTy).Contents (Elt Ideal)) (idx : (⟨S800000x1, .i32⟩ : BufTy).Contents (Elt Ideal))
    (e : Fin 800000) (k : Fin 128) :
    Host.gather gather_S50000x128_S800000x1_S800000x128_1_0_n_n_0_1_1128 X idx (ix2 e k) = X (ix2 (rowOf idx e) k) :=
  LibRows.gath2_apply (N := 50000) (M := 800000) (C := 128) (by omega) Gen.gather_S50000x128_S800000x1_S800000x128_1_0_n_n_0_1_1128_wf X idx e k

/-! ## Indices by coordinates -/

/-- Two rank-2 indices with the same coordinates are equal. -/
theorem ix2_ext {n0 n1 : Nat} (p q : (⟨2, ![n0, n1]⟩ : Shape).Idx) (h0 : p 0 = q 0) (h1 : p 1 = q 1) : p = q :=
  funext fun a => by match a with | ⟨0, _⟩ => exact h0 | ⟨1, _⟩ => exact h1

/-- Two rank-1 indices with the same coordinate are equal. -/
theorem ix1_ext {n : Nat} (p q : (⟨1, ![n]⟩ : Shape).Idx) (h0 : p 0 = q 0) : p = q :=
  funext fun a => by match a with | ⟨0, _⟩ => exact h0

/-! ## The zeros, the bias rows and the weight slices at an entry -/

/-- The scatter's starting array of the first layer is zero everywhere. -/
theorem zero16_at (i : S50000x128.Idx) : Read.val_main_v16 (F := Ideal) i = (0 : EReal) := by
  rw [Read.val_main_v16_apply, Read.val_main_cst_apply]; exact Ideal.ofBits_zero_f32

/-- The scatter's starting array of the second layer is zero everywhere. -/
theorem zero35_at (i : S50000x128.Idx) : Read.val_main_v35 (F := Ideal) i = (0 : EReal) := by
  rw [Read.val_main_v35_apply, Read.val_main_cst_3_apply]; exact Ideal.ofBits_zero_f32

/-- The rectifier's comparand is zero everywhere. -/
theorem zeroRelu_at (i : S50000x128.Idx) : Read.val_main_call0_v0 (F := Ideal) i = (0 : EReal) := by
  rw [Read.val_main_call0_v0_apply, Read.val_main_call0_cst_apply]; exact Ideal.ofBits_zero_f32

/-- The first bias, broadcast along the rows, at entry `(v, j)` is its entry `j`. -/
theorem bias1_at (x4 : (⟨S128, .f32⟩ : BufTy).Contents (Elt Ideal)) (v : Fin 50000) (j : Fin 128) :
    Read.val_main_v20 (F := Ideal) x4 (ix2 v j) = x4 (ix1 j) := by
  rw [Read.val_main_v20_apply, Read.val_main_v19_apply]
  exact congrArg x4 (ix1_ext _ _ rfl)

/-- The second bias likewise. -/
theorem bias2_at (x6 : (⟨S128, .f32⟩ : BufTy).Contents (Elt Ideal)) (v : Fin 50000) (j : Fin 128) :
    Read.val_main_v39 (F := Ideal) x6 (ix2 v j) = x6 (ix1 j) := by
  rw [Read.val_main_v39_apply, Read.val_main_v38_apply]
  exact congrArg x6 (ix1_ext _ _ rfl)

/-- The first 128 rows of the first weight matrix. -/
theorem wTop1_at (x3 : (⟨S144x128, .f32⟩ : BufTy).Contents (Elt Ideal)) (k j : Fin 128) : Read.val_main_v4 (F := Ideal) x3 (ix2 k j) = wTop x3 k j := by
  rw [Read.val_main_v4_apply]; unfold wTop
  exact congrArg x3 (ix2_ext _ _ rfl rfl)

/-- The last 16 rows of the first weight matrix. -/
theorem wBot1_at (x3 : (⟨S144x128, .f32⟩ : BufTy).Contents (Elt Ideal)) (c : Fin 16) (j : Fin 128) : Read.val_main_v5 (F := Ideal) x3 (ix2 c j) = wBot x3 c j := by
  rw [Read.val_main_v5_apply]; unfold wBot
  exact congrArg x3 (ix2_ext _ _ rfl rfl)

/-- The first 128 rows of the second weight matrix. -/
theorem wTop2_at (x5 : (⟨S144x128, .f32⟩ : BufTy).Contents (Elt Ideal)) (k j : Fin 128) : Read.val_main_v23 (F := Ideal) x5 (ix2 k j) = wTop x5 k j := by
  rw [Read.val_main_v23_apply]; unfold wTop
  exact congrArg x5 (ix2_ext _ _ rfl rfl)

/-- The last 16 rows of the second weight matrix. -/
theorem wBot2_at (x5 : (⟨S144x128, .f32⟩ : BufTy).Contents (Elt Ideal)) (c : Fin 16) (j : Fin 128) : Read.val_main_v24 (F := Ideal) x5 (ix2 c j) = wBot x5 c j := by
  rw [Read.val_main_v24_apply]; unfold wBot
  exact congrArg x5 (ix2_ext _ _ rfl rfl)

/-! ## One layer from its pieces -/

/-- A sum over the landing edges of messages of the layer's form, plus the bias entry, is the specification's layer. -/
theorem layer_assemble (H : Fin 50000 → Finset (Fin 800000)) (r : Fin 800000 → Fin 50000) (A : Fin 800000 → Fin 16 → EReal)
    (X : Fin 50000 → Fin 128 → EReal) (Wx : Fin 128 → Fin 128 → EReal) (We : Fin 16 → Fin 128 → EReal) (b : Fin 128 → EReal)
    (v : Fin 50000) (j : Fin 128) (S : EReal) (msg : Fin 800000 → EReal) (bias : EReal)
    (hS : S = 0 + ∑ e ∈ H v, msg e) (hmsg : ∀ e, msg e = (∑ k, X (r e) k * Wx k j) + ∑ c, A e c * We c j)
    (hb : bias = b j) : S + bias = layerRef H r A X Wx We b v j := by
  subst hS hb
  unfold layerRef
  exact congrArg (· + b j) (congrArg (0 + ·) (Finset.sum_congr rfl fun e _ => hmsg e))

/-! ## The first layer -/

/-- The edge-attribute product of the first layer at entry `(e, j)`. -/
theorem dotE1_at (x2 : (⟨S800000x16, .f32⟩ : BufTy).Contents (Elt Ideal)) (x3 : (⟨S144x128, .f32⟩ : BufTy).Contents (Elt Ideal)) (e : Fin 800000) (j : Fin 128) :
    Read.val_main_v14 (F := Ideal) x2 x3 (ix2 e j) = ∑ c : Fin 16, x2 (ix2 e c) * wBot x3 c j := by
  rw [Read.val_main_v14_apply]
  refine Finset.sum_congr rfl fun c _ => ?_
  rw [← wBot1_at x3 c j]
  exact congrArg₂ (· * ·) (congrArg x2 (ix2_ext _ _ rfl rfl)) (congrArg (Read.val_main_v5 (F := Ideal) x3) (ix2_ext _ _ rfl rfl))

/-- The node-feature product of the first layer at entry `(e, j)`: the gathered row times the node weights. -/
theorem dotX1_at (x0 : (⟨S50000x128, .f32⟩ : BufTy).Contents (Elt Ideal)) (x1 : (⟨S2x800000, .i32⟩ : BufTy).Contents (Elt Ideal)) (x3 : (⟨S144x128, .f32⟩ : BufTy).Contents (Elt Ideal)) (e : Fin 800000) (j : Fin 128) :
    Read.val_main_v13 (F := Ideal) x0 x1 x3 (ix2 e j)
      = ∑ k : Fin 128, x0 (ix2 (rowOf (Read.val_main_v11 (F := Ideal) x1) e) k) * wTop x3 k j := by
  rw [Read.val_main_v13_apply]
  refine Finset.sum_congr rfl fun k _ => ?_
  rw [← wTop1_at x3 k j, ← gath_read x0 (Read.val_main_v11 (F := Ideal) x1) e k]
  exact congrArg₂ (· * ·) (congrArg (Read.val_main_v12 (F := Ideal) x0 x1) (ix2_ext _ _ rfl rfl))
    (congrArg (Read.val_main_v4 (F := Ideal) x3) (ix2_ext _ _ rfl rfl))

/-- THE FIRST LAYER at entry `(n, k)`. -/
theorem layer1_at (x0 : (⟨S50000x128, .f32⟩ : BufTy).Contents (Elt Ideal)) (x1 : (⟨S2x800000, .i32⟩ : BufTy).Contents (Elt Ideal)) (x2 : (⟨S800000x16, .f32⟩ : BufTy).Contents (Elt Ideal)) (x3 : (⟨S144x128, .f32⟩ : BufTy).Contents (Elt Ideal)) (x4 : (⟨S128, .f32⟩ : BufTy).Contents (Elt Ideal)) (n : Fin 50000) (k : Fin 128) :
    Read.val_main_v21 (F := Ideal) x0 x1 x2 x3 x4 (ix2 n k)
      = layerRef (hit (Read.val_main_v17 (F := Ideal) x1)) (rowOf (Read.val_main_v11 (F := Ideal) x1)) (fun e c => x2 (ix2 e c)) (fun n k => x0 (ix2 n k)) (wTop x3) (wBot x3) (fun j => x4 (ix1 j)) n k := by
  rw [Read.val_main_v21_apply, Ideal.addf_def]
  refine layer_assemble _ _ _ _ _ _ _ n k _ (fun e => Read.val_main_v15 (F := Ideal) x0 x1 x2 x3 (ix2 e k)) _ ?_ (fun e => ?_)
    (bias1_at x4 n k)
  · unfold Read.val_main_v18
    rw [scat_read, zero16_at]
  · rw [Read.val_main_v15_apply, Ideal.addf_def, dotX1_at, dotE1_at]

/-- The rectified first layer at entry `(n, k)`. -/
theorem relu_at (x0 : (⟨S50000x128, .f32⟩ : BufTy).Contents (Elt Ideal)) (x1 : (⟨S2x800000, .i32⟩ : BufTy).Contents (Elt Ideal)) (x2 : (⟨S800000x16, .f32⟩ : BufTy).Contents (Elt Ideal)) (x3 : (⟨S144x128, .f32⟩ : BufTy).Contents (Elt Ideal)) (x4 : (⟨S128, .f32⟩ : BufTy).Contents (Elt Ideal)) (n : Fin 50000) (k : Fin 128) :
    Read.val_main_v22 (F := Ideal) x0 x1 x2 x3 x4 (ix2 n k)
      = max (layerRef (hit (Read.val_main_v17 (F := Ideal) x1)) (rowOf (Read.val_main_v11 (F := Ideal) x1)) (fun e c => x2 (ix2 e c)) (fun n k => x0 (ix2 n k)) (wTop x3) (wBot x3) (fun j => x4 (ix1 j)) n k) 0 := by
  rw [Read.val_main_v22_apply, Ideal.maximumf_def, layer1_at, zeroRelu_at]

/-! ## The second layer -/

/-- The edge-attribute product of the second layer at entry `(e, j)`. -/
theorem dotE2_at (x2 : (⟨S800000x16, .f32⟩ : BufTy).Contents (Elt Ideal)) (x5 : (⟨S144x128, .f32⟩ : BufTy).Contents (Elt Ideal)) (e : Fin 800000) (j : Fin 128) :
    Read.val_main_v33 (F := Ideal) x2 x5 (ix2 e j) = ∑ c : Fin 16, x2 (ix2 e c) * wBot x5 c j := by
  rw [Read.val_main_v33_apply]
  refine Finset.sum_congr rfl fun c _ => ?_
  rw [← wBot2_at x5 c j]
  exact congrArg₂ (· * ·) (congrArg x2 (ix2_ext _ _ rfl rfl)) (congrArg (Read.val_main_v24 (F := Ideal) x5) (ix2_ext _ _ rfl rfl))

/-- The second layer's gather at entry `(e, k)`: the rectified first layer at the row edge `e` reads. -/
theorem gath2_at (x0 : (⟨S50000x128, .f32⟩ : BufTy).Contents (Elt Ideal)) (x1 : (⟨S2x800000, .i32⟩ : BufTy).Contents (Elt Ideal)) (x2 : (⟨S800000x16, .f32⟩ : BufTy).Contents (Elt Ideal)) (x3 : (⟨S144x128, .f32⟩ : BufTy).Contents (Elt Ideal)) (x4 : (⟨S128, .f32⟩ : BufTy).Contents (Elt Ideal)) (e : Fin 800000) (k : Fin 128) :
    Read.val_main_v31 (F := Ideal) x0 x1 x2 x3 x4 (ix2 e k)
      = max (layerRef (hit (Read.val_main_v17 (F := Ideal) x1)) (rowOf (Read.val_main_v11 (F := Ideal) x1)) (fun e c => x2 (ix2 e c)) (fun n k => x0 (ix2 n k)) (wTop x3) (wBot x3) (fun j => x4 (ix1 j)) (rowOf (Read.val_main_v11 (F := Ideal) x1) e) k) 0 := by
  unfold Read.val_main_v31
  rw [gath_read, src_again, relu_at]

/-- The node-feature product of the second layer at entry `(e, j)`. -/
theorem dotX2_at (x0 : (⟨S50000x128, .f32⟩ : BufTy).Contents (Elt Ideal)) (x1 : (⟨S2x800000, .i32⟩ : BufTy).Contents (Elt Ideal)) (x2 : (⟨S800000x16, .f32⟩ : BufTy).Contents (Elt Ideal)) (x3 : (⟨S144x128, .f32⟩ : BufTy).Contents (Elt Ideal)) (x4 : (⟨S128, .f32⟩ : BufTy).Contents (Elt Ideal)) (x5 : (⟨S144x128, .f32⟩ : BufTy).Contents (Elt Ideal)) (e : Fin 800000) (j : Fin 128) :
    Read.val_main_v32 (F := Ideal) x0 x1 x2 x3 x4 x5 (ix2 e j)
      = ∑ k : Fin 128, (max (layerRef (hit (Read.val_main_v17 (F := Ideal) x1)) (rowOf (Read.val_main_v11 (F := Ideal) x1)) (fun e c => x2 (ix2 e c)) (fun n k => x0 (ix2 n k)) (wTop x3) (wBot x3) (fun j => x4 (ix1 j)) (rowOf (Read.val_main_v11 (F := Ideal) x1) e) k) 0) * wTop x5 k j := by
  rw [Read.val_main_v32_apply]
  refine Finset.sum_congr rfl fun k _ => ?_
  rw [← wTop2_at x5 k j, ← gath2_at x0 x1 x2 x3 x4 e k]
  exact congrArg₂ (· * ·) (congrArg (Read.val_main_v31 (F := Ideal) x0 x1 x2 x3 x4) (ix2_ext _ _ rfl rfl))
    (congrArg (Read.val_main_v23 (F := Ideal) x5) (ix2_ext _ _ rfl rfl))

/-! ## The network -/

/-- THE REFERENCE PROGRAM'S RESULT at entry `(v, j)` is the network as a sum of per-edge messages, with the source and
    destination columns the program computes from its index argument. -/
theorem ref_apply (x0 : (⟨S50000x128, .f32⟩ : BufTy).Contents (Elt Ideal)) (x1 : (⟨S2x800000, .i32⟩ : BufTy).Contents (Elt Ideal)) (x2 : (⟨S800000x16, .f32⟩ : BufTy).Contents (Elt Ideal)) (x3 : (⟨S144x128, .f32⟩ : BufTy).Contents (Elt Ideal)) (x4 : (⟨S128, .f32⟩ : BufTy).Contents (Elt Ideal)) (x5 : (⟨S144x128, .f32⟩ : BufTy).Contents (Elt Ideal)) (x6 : (⟨S128, .f32⟩ : BufTy).Contents (Elt Ideal)) (v : Fin 50000) (j : Fin 128) :
    Read.val_main_v40 (F := Ideal) x0 x1 x2 x3 x4 x5 x6 (ix2 v j)
      = Cert.EdgeGcn.outRef (Read.val_main_v11 (F := Ideal) x1) (Read.val_main_v17 (F := Ideal) x1) x0 x2 x3 x4 x5 x6 v j := by
  unfold Cert.EdgeGcn.outRef Cert.EdgeGcn.netRef
  rw [Read.val_main_v40_apply, Ideal.addf_def]
  refine layer_assemble _ _ _ _ _ _ _ v j _ (fun e => Read.val_main_v34 (F := Ideal) x0 x1 x2 x3 x4 x5 (ix2 e j)) _ ?_ (fun e => ?_)
    (bias2_at x6 v j)
  · unfold Read.val_main_v37
    rw [scat_read, zero35_at, dst_again]
  · rw [Read.val_main_v34_apply, Ideal.addf_def, dotX2_at, dotE2_at]

end Cert.EdgeGcn.RefSide

end
-- ==== Proof.Finite.lean ====
/-
  Finiteness on the extended reals. A float input is read as an element of [-∞, +∞]; the generated
  precondition says, array by array, that every entry x satisfies |x| < +∞ (where |x| = max x (-x) and
  +∞ is what the pattern 0x7F800000 denotes), and joins these statements by conjunction. Of the three
  kinds of extended real — -∞, a real number, +∞ — only a real number has |x| < +∞, because
  |-∞| = |+∞| = +∞. So the precondition gives: every entry of every float input is a real number.
-/
import proofs.«104050_j77962246357191_2_alg».proof.Pre_finite_inputs
import Idealize.ShloMosaic.PureOps.Ideal
import Idealize.ShloMosaic.Lib.ReduceAll
import Idealize.ShloMosaic.Lib.ValueIdx
import Idealize.ShloMosaic.Lib.IdealHost

namespace Cert.EdgeGcn.Finite

open Idealize.ShloMosaic

/-- The single-precision pattern with all exponent bits set and a zero significand is +∞. -/
theorem inf_pattern : Ideal.ofBits .f32 0x7F800000#32 = (⊤ : EReal) := by
  simp [Ideal.ofBits, Ideal.ieee]

/-- An extended real whose absolute value max x (-x) lies strictly below +∞ is a real number:
    at -∞ the negation is +∞, at +∞ the value itself is, and in both cases the maximum is +∞. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The shape of a scalar has exactly one index. -/
instance : Subsingleton (⟨0, ![]⟩ : Shape).Idx := ⟨fun a b => funext fun d => d.elim0⟩

/-- One array: if the conjunction over all entries of "|a i| < +∞" holds, every entry of a is real.
    The conjunction being true makes each conjunct true; a conjunct is the truth value of
    max (a i) (-(a i)) < +∞, which leaves only the real numbers. -/
theorem real_of_all {s : Shape} {axes : List (Fin s.rank)} (a : FVec Ideal s .f32)
    (hb : (⟨0, ![]⟩ : Shape).BroadcastsInDim s ![]) (hr : s.ReducesTo axes (⟨0, ![]⟩ : Shape))
    (hn : 0 < (⟨0, ![]⟩ : Shape).numel) (init : IVec (⟨0, ![]⟩ : Shape) 1)
    (h : Host.reduce IntOp.andi
          (cmpf .olt (Host.absf a)
            (broadcastInDim s ![] hb (constant (F := Ideal) (⟨0, ![]⟩ : Shape) .f32 0x7F800000#32)))
          init hr hn ValueIdx.ix0 = 1#1) :
    ∀ i, ∃ r : ℝ, a i = (r : EReal) := by
  intro i
  have e := Host.reduce_andi_all _ _ hr hn _ h i
  rw [ValueIdx.cmpf_apply, ValueIdx.broadcastInDim_scalar_apply, ValueIdx.constant_apply, inf_pattern] at e
  have e' : BitVec.ofBool (decide (max (a i) (-(a i)) < (⊤ : EReal))) = 1#1 := e
  refine real_of_abs_lt_top (a i) ?_
  by_contra hc
  simp [hc] at e'

/-- The precondition is a conjunction of one "all entries finite" statement per float input; taking
    it apart gives the statement for the three arrays named here, and each is read by the lemma above. -/
theorem real_of_pre [Cert.Pre_finite_inputs.Facts]
    (a0 : FVec Ideal Cert.Pre_finite_inputs.S50000x128 .f32) (a1 : IVec Cert.Pre_finite_inputs.S2x800000 32)
    (a2 : FVec Ideal Cert.Pre_finite_inputs.S800000x16 .f32) (a3 : FVec Ideal Cert.Pre_finite_inputs.S144x128 .f32)
    (a4 : FVec Ideal Cert.Pre_finite_inputs.S128 .f32) (a5 : FVec Ideal Cert.Pre_finite_inputs.S144x128 .f32)
    (a6 : FVec Ideal Cert.Pre_finite_inputs.S128 .f32)
    (h : Cert.Pre_finite_inputs.fn (F := Ideal) a0 a1 a2 a3 a4 a5 a6 = fun _ => 1#1) :
    (∀ i, ∃ r : ℝ, a2 i = (r : EReal)) ∧ (∀ i, ∃ r : ℝ, a3 i = (r : EReal)) ∧ (∀ i, ∃ r : ℝ, a5 i = (r : EReal)) := by
  have h0 := congrFun h ValueIdx.ix0
  unfold Cert.Pre_finite_inputs.fn Cert.Pre_finite_inputs.fn_part1 at h0
  dsimp only at h0
  obtain ⟨h23, -⟩ := IntOp.andi_eq_one.1 h0
  obtain ⟨h18, h22⟩ := IntOp.andi_eq_one.1 h23
  obtain ⟨h13, -⟩ := IntOp.andi_eq_one.1 h18
  obtain ⟨h8, h12⟩ := IntOp.andi_eq_one.1 h13
  obtain ⟨-, h7⟩ := IntOp.andi_eq_one.1 h8
  exact ⟨real_of_all a2 _ _ _ _ h7, real_of_all a3 _ _ _ _ h12, real_of_all a5 _ _ _ _ h22⟩

end Cert.EdgeGcn.Finite
-- ==== Proof.lean ====
/-
  The certificate of a two-layer edge-conditioned graph network: three grid kernels among host gathers and
  scatter-adds, against the plain per-edge reference, on the extended reals.

  One layer sends every edge the message `x[src] · Wx + attr · We`, sums the messages landing on each node, and
  adds a bias; a rectifier sits between the two layers. The reference computes the messages edge by edge. The kernel
  program uses that the sum over the landing edges is linear: it multiplies the node features by `Wx` once per node
  and sums the looked-up product rows, and it sums the edge attributes per node once, for both layers, and multiplies
  that sum by `We` per node. Splitting the sum of two kinds of terms needs only that addition on the extended reals
  is commutative and associative; moving `We` across the sum over edges is distributivity, which holds because the
  edge attributes and the weights are real numbers — the one place the precondition "every float input is finite"
  is used (Proof/Spec.lean).

  The kernel program's value is read off its generated frame run (Proof/KRun.lean: the run with the result buffer
  named), each kernel as one whole-array function of the arrays it is entered with (Proof/KRegion0 … 2 over the
  bodies' arithmetic of Proof/KBody.lean), the host stretches as their operations' functions (Proof/KHost.lean), and
  the composition at an entry as the specification's second arrangement (Proof/KValue.lean). The reference's value
  is its generated run, read at an entry as the specification's first arrangement (Proof/RefSide.lean). Both programs
  compute the gather's and the scatter's index columns by the same operations on the edge list.
-/
import proofs.«104050_j77962246357191_2_alg».proof.Defs
import proofs.«104050_j77962246357191_2_alg».proof.Proof.Gen.Kernel
import proofs.«104050_j77962246357191_2_alg».proof.Proof.Gen.Kernel.Skeleton
import proofs.«104050_j77962246357191_2_alg».proof.Proof.Gen.Kernel.Launch
import proofs.«104050_j77962246357191_2_alg».proof.Proof.Gen.Kernel.Points
import proofs.«104050_j77962246357191_2_alg».proof.Proof.Gen.Kernel.Frame
import proofs.«104050_j77962246357191_2_alg».proof.Proof.Gen.KernelIdeal
import proofs.«104050_j77962246357191_2_alg».proof.Proof.Gen.KernelIdeal.Skeleton
import proofs.«104050_j77962246357191_2_alg».proof.Proof.Gen.KernelIdeal.Launch
import proofs.«104050_j77962246357191_2_alg».proof.Proof.Gen.KernelIdeal.Points
import proofs.«104050_j77962246357191_2_alg».proof.Proof.Gen.KernelIdeal.Frame
import proofs.«104050_j77962246357191_2_alg».proof.Proof.Gen.ReferenceIdeal
import proofs.«104050_j77962246357191_2_alg».proof.Proof.Gen.Pre_finite_inputs
import proofs.«104050_j77962246357191_2_alg».proof.Proof.Gen.ReferenceIdeal.Read
import proofs.«104050_j77962246357191_2_alg».proof.Proof.KRun
import proofs.«104050_j77962246357191_2_alg».proof.Proof.KValue
import proofs.«104050_j77962246357191_2_alg».proof.Proof.RefSide
import proofs.«104050_j77962246357191_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem Cert.EdgeGcn

/-- The word-level kernel program runs and leaves its arguments as launched: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The two programs compute the gather's start-index column by the same operations on the edge list. -/
theorem src_same (ei : IVec Cert.KernelIdeal.S2x800000 32) :
    Cert.ReferenceIdeal.Read.val_main_v11 (F := Ideal) ei = KHost.srcCol (KHost.v1Of ei) := rfl

/-- And the scatter's start-index column. -/
theorem dst_same (ei : IVec Cert.KernelIdeal.S2x800000 32) :
    Cert.ReferenceIdeal.Read.val_main_v17 (F := Ideal) ei = KHost.dstCol (KHost.v3Of ei) := rfl

/-- THE VALUE CLAIM: from memories agreeing on the arguments, both programs end with the same result array — the
    network at every entry, in the kernel program's arrangement and in the reference's, which agree because the edge
    attributes and the weights are finite. -/
theorem algebraic : Cert.algebraic_KernelIdeal_ReferenceIdeal := by
  intro m ρ m' ρ' hpre hagree
  refine ⟨fun c => KHost.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (KHost.result_eq m ρ c), (h c).2⟩) (KRun.run_value m ρ)
  · refine (θ_run Cert.ReferenceIdeal.defs _ _).mono (fun r h c => ⟨(h c).1.trans ?_, (h c).2⟩)
      (Cert.ReferenceIdeal.Value.run (F := Ideal) m' ρ')
    obtain ⟨hea, hW1, hW2⟩ := Finite.real_of_pre _ _ _ _ _ _ _ (hpre c)
    rw [Cert.ReferenceIdeal.Read.val_main_v40_eq, (hagree c).1, (hagree c).2.1, (hagree c).2.2.1, (hagree c).2.2.2.1,
      (hagree c).2.2.2.2.1, (hagree c).2.2.2.2.2.1, (hagree c).2.2.2.2.2.2]
    funext i
    obtain ⟨v, j, rfl⟩ : ∃ (v : Fin 50000) (j : Fin 128), i = ix2 v j := ⟨i 0, i 1, eq_ix2 i⟩
    beta_reduce
    rw [RefSide.ref_apply, KValue.outK_apply, src_same, dst_same, outKer_eq_outRef _ _ _ _ _ _ _ _ hea hW1 hW2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
